-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x12 : Shape := ⟨2, ![500000, 12]⟩
abbrev S2x8000000 : Shape := ⟨2, ![2, 8000000]⟩
abbrev S12x16 : Shape := ⟨2, ![12, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S500000x12 : S_.BroadcastsInDim S500000x12 (![] : Fin 0 → Fin S500000x12.rank)
  reducesTo_S500000x12_S_d0_1 : S500000x12.ReducesTo [0, 1] S_
  h_S_ : 0 < S_.numel
  bcast_S_S12x16 : S_.BroadcastsInDim S12x16 (![] : Fin 0 → Fin S12x16.rank)
  reducesTo_S12x16_S_d0_1 : S12x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S8 .f32) (main_arg6 : FVec F S8x1 .f32) (main_arg7 : FVec F S1 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S500000x12 .f32) (main_arg1 : IVec S2x8000000 32) (main_arg2 : FVec F S12x16 .f32) (main_arg3 : FVec F S16 .f32) (main_arg4 : FVec F S16x8 .f32) (main_arg5 : FVec F S8 .f32) (main_arg6 : FVec F S8x1 .f32) (main_arg7 : FVec F S1 .f32) : IVec S_ 1 :=
  let main_v0 : FVec F S500000x12 .f32 := Host.absf main_arg0
  let main_cst : FVec F S_ .f32 := constant S_ .f32 0x7F800000#32
  let main_v1 : FVec F S500000x12 .f32 := broadcastInDim S500000x12 ![] bcast_S_S500000x12 main_cst
  let main_v2 : IVec S500000x12 1 := cmpf .olt main_v0 main_v1
  let main_c : IVec S_ 1 := constantI S_ 1 1#1
  let main_v3 : IVec S_ 1 := (fun x v => Host.reduce IntOp.andi x v reducesTo_S500000x12_S_d0_1 h_S_) main_v2 main_c
  let main_v4 : FVec F S12x16 .f32 := Host.absf main_arg2
  let main_cst_0 : FVec F S_ .f32 := constant S_ .f32 0x7F800000#32
  let main_v5 : FVec F S12x16 .f32 := broadcastInDim S12x16 ![] bcast_S_S12x16 main_cst_0
  let main_v6 : IVec S12x16 1 := cmpf .olt main_v4 main_v5
  let main_c_1 : IVec S_ 1 := constantI S_ 1 1#1
  let main_v7 : IVec S_ 1 := (fun x v => Host.reduce IntOp.andi x v reducesTo_S12x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_arg6 main_arg7 main_v13 main_v16
-- ==== Kernel.lean ====
abbrev S500000x12 : Shape := ⟨2, ![500000, 12]⟩
abbrev S2x8000000 : Shape := ⟨2, ![2, 8000000]⟩
abbrev S12x16 : Shape := ⟨2, ![12, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x8000000 : Shape := ⟨2, ![1, 8000000]⟩
abbrev S8000000 : Shape := ⟨1, ![8000000]⟩
abbrev S500000 : Shape := ⟨1, ![500000]⟩
abbrev S8500000 : Shape := ⟨1, ![8500000]⟩
abbrev S_ : Shape := ⟨0, ![]⟩
abbrev S8500000x1 : Shape := ⟨2, ![8500000, 1]⟩
abbrev S500000x16 : Shape := ⟨2, ![500000, 16]⟩
abbrev S10000x12 : Shape := ⟨2, ![10000, 12]⟩
abbrev S10000x16 : Shape := ⟨2, ![10000, 16]⟩
abbrev S8500000x16 : Shape := ⟨2, ![8500000, 16]⟩
abbrev S1x16 : Shape := ⟨2, ![1, 16]⟩
abbrev S500000x8 : Shape := ⟨2, ![500000, 8]⟩
abbrev S10000x8 : Shape := ⟨2, ![10000, 8]⟩
abbrev S8500000x8 : Shape := ⟨2, ![8500000, 8]⟩
abbrev S1x8 : Shape := ⟨2, ![1, 8]⟩
abbrev S1x1 : Shape := ⟨2, ![1, 1]⟩
abbrev S500000x1 : Shape := ⟨2, ![500000, 1]⟩
abbrev S10000x1 : Shape := ⟨2, ![10000, 1]⟩

abbrev nBuf : Space → Nat
  | .hbm => 81
  | .vmem => 26
  | .smem => 0
  | _ => 0

abbrev bufTy : (tb : Table) → Fin (tcTables nBuf tb) → BufTy
  | .hbm, ⟨0, _⟩ => ⟨S500000x12, .f32⟩
  | .hbm, ⟨1, _⟩ => ⟨S2x8000000, .i32⟩
  | .hbm, ⟨2, _⟩ => ⟨S12x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1, .f32⟩
  | .hbm, ⟨7, _⟩ => ⟨S1, .f32⟩
  | .hbm, ⟨8, _⟩ => ⟨S1x8000000, .i32⟩
  | .hbm, ⟨9, _⟩ => ⟨S8000000, .i32⟩
  | .hbm, ⟨10, _⟩ => ⟨S1x8000000, .i32⟩
  | .hbm, ⟨11, _⟩ => ⟨S8000000, .i32⟩
  | .hbm, ⟨12, _⟩ => ⟨S500000, .i32⟩
  | .hbm, ⟨13, _⟩ => ⟨S8500000, .i32⟩
  | .hbm, ⟨14, _⟩ => ⟨S8500000, .i32⟩
  | .hbm, ⟨15, _⟩ => ⟨S_, .f32⟩
  | .hbm, ⟨16, _⟩ => ⟨S8500000, .f32⟩
  | .hbm, ⟨17, _⟩ => ⟨S_, .f32⟩
  | .hbm, ⟨18, _⟩ => ⟨S500000, .f32⟩
  | .hbm, ⟨19, _⟩ => ⟨S8500000x1, .i32⟩
  | .hbm, ⟨20, _⟩ => ⟨S500000, .f32⟩
  | .hbm, ⟨21, _⟩ => ⟨S500000, .f32⟩
  | .hbm, ⟨22, _⟩ => ⟨S_, .i32⟩
  | .hbm, ⟨23, _⟩ => ⟨S8500000, .i32⟩
  | .hbm, ⟨24, _⟩ => ⟨S8500000, .i1⟩
  | .hbm, ⟨25, _⟩ => ⟨S_, .i32⟩
  | .hbm, ⟨26, _⟩ => ⟨S8500000, .i32⟩
  | .hbm, ⟨27, _⟩ => ⟨S8500000, .i32⟩
  | .hbm, ⟨28, _⟩ => ⟨S8500000, .i32⟩
  | .hbm, ⟨29, _⟩ => ⟨S8500000x1, .i32⟩
  | .hbm, ⟨30, _⟩ => ⟨S8500000, .f32⟩
  | .hbm, ⟨31, _⟩ => ⟨S_, .i32⟩
  | .hbm, ⟨32, _⟩ => ⟨S8500000, .i32⟩
  | .hbm, ⟨33, _⟩ => ⟨S8500000, .i1⟩
  | .hbm, ⟨34, _⟩ => ⟨S_, .i32⟩
  | .hbm, ⟨35, _⟩ => ⟨S8500000, .i32⟩
  | .hbm, ⟨36, _⟩ => ⟨S8500000, .i32⟩
  | .hbm, ⟨37, _⟩ => ⟨S8500000, .i32⟩
  | .hbm, ⟨38, _⟩ => ⟨S8500000x1, .i32⟩
  | .hbm, ⟨39, _⟩ => ⟨S8500000, .f32⟩
  | .hbm, ⟨40, _⟩ => ⟨S8500000, .f32⟩
  | .hbm, ⟨41, _⟩ => ⟨S500000x16, .f32⟩
  | .hbm, ⟨42, _⟩ => ⟨S_, .i32⟩
  | .hbm, ⟨43, _⟩ => ⟨S8500000, .i32⟩
  | .hbm, ⟨44, _⟩ => ⟨S8500000, .i1⟩
  | .hbm, ⟨45, _⟩ => ⟨S_, .i32⟩
  | .hbm, ⟨46, _⟩ => ⟨S8500000, .i32⟩
  | .hbm, ⟨47, _⟩ => ⟨S8500000, .i32⟩
  | .hbm, ⟨48, _⟩ => ⟨S8500000, .i32⟩
  | .hbm, ⟨49, _⟩ => ⟨S8500000x1, .i32⟩
  | .hbm, ⟨50, _⟩ => ⟨S8500000x16, .f32⟩
  | .hbm, ⟨51, _⟩ => ⟨S8500000x1, .f32⟩
  | .hbm, ⟨52, _⟩ => ⟨S8500000x16, .f32⟩
  | .hbm, ⟨53, _⟩ => ⟨S8500000x16, .f32⟩
  | .hbm, ⟨54, _⟩ => ⟨S_, .f32⟩
  | .hbm, ⟨55, _⟩ => ⟨S500000x16, .f32⟩
  | .hbm, ⟨56, _⟩ => ⟨S8500000x1, .i32⟩
  | .hbm, ⟨57, _⟩ => ⟨S500000x16, .f32⟩
  | .hbm, ⟨58, _⟩ => ⟨S1x16, .f32⟩
  | .hbm, ⟨59, _⟩ => ⟨S500000x16, .f32⟩
  | .hbm, ⟨60, _⟩ => ⟨S500000x8, .f32⟩
  | .hbm, ⟨61, _⟩ => ⟨S_, .i32⟩
  | .hbm, ⟨62, _⟩ => ⟨S8500000, .i32⟩
  | .hbm, ⟨63, _⟩ => ⟨S8500000, .i1⟩
  | .hbm, ⟨64, _⟩ => ⟨S_, .i32⟩
  | .hbm, ⟨65, _⟩ => ⟨S8500000, .i32⟩
  | .hbm, ⟨66, _⟩ => ⟨S8500000, .i32⟩
  | .hbm, ⟨67, _⟩ => ⟨S8500000, .i32⟩
  | .hbm, ⟨68, _⟩ => ⟨S8500000x1, .i32⟩
  | .hbm, ⟨69, _⟩ => ⟨S8500000x8, .f32⟩
  | .hbm, ⟨70, _⟩ => ⟨S8500000x1, .f32⟩
  | .hbm, ⟨71, _⟩ => ⟨S8500000x8, .f32⟩
  | .hbm, ⟨72, _⟩ => ⟨S8500000x8, .f32⟩
  | .hbm, ⟨73, _⟩ => ⟨S_, .f32⟩
  | .hbm, ⟨74, _⟩ => ⟨S500000x8, .f32⟩
  | .hbm, ⟨75, _⟩ => ⟨S8500000x1, .i32⟩
  | .hbm, ⟨76, _⟩ => ⟨S500000x8, .f32⟩
  | .hbm, ⟨77, _⟩ => ⟨S1x8, .f32⟩
  | .hbm, ⟨78, _⟩ => ⟨S500000x8, .f32⟩
  | .hbm, ⟨79, _⟩ => ⟨S1x1, .f32⟩
  | .hbm, ⟨80, _⟩ => ⟨S500000x1, .f32⟩
  | .local _ .vmem, ⟨0, _⟩ => ⟨S10000x12, .f32⟩
  | .local _ .vmem, ⟨1, _⟩ => ⟨S10000x12, .f32⟩
  | .local _ .vmem, ⟨2, _⟩ => ⟨S12x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x8, .f32⟩
  | .local _ .vmem, ⟨13, _⟩ => ⟨S10000x8, .f32⟩
  | .local _ .vmem, ⟨14, _⟩ => ⟨S10000x8, .f32⟩
  | .local _ .vmem, ⟨15, _⟩ => ⟨S10000x8, .f32⟩
  | .local _ .vmem, ⟨16, _⟩ => ⟨S10000x8, .f32⟩
  | .local _ .vmem, ⟨17, _⟩ => ⟨S1x8, .f32⟩
  | .local _ .vmem, ⟨18, _⟩ => ⟨S10000x8, .f32⟩
  | .local _ .vmem, ⟨19, _⟩ => ⟨S10000x8, .f32⟩
  | .local _ .vmem, ⟨20, _⟩ => ⟨S10000x8, .f32⟩
  | .local _ .vmem, ⟨21, _⟩ => ⟨S10000x8, .f32⟩
  | .local _ .vmem, ⟨22, _⟩ => ⟨S8x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S500000x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x8 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  concatenates_S8000000_S500000_S8500000_d0 : Shape.Concatenates [S8000000, S500000] S8500000 0
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  inb_S10000x12_S10000x12_0_0 : ∀ a, (![0, 0] : Fin 2 → Nat) a + S10000x12.size a ≤ S10000x12.size a
  h_S10000x12 : 0 < S10000x12.numel
  bitsLt_bf16_f32 : FTy.bits .bf16 < FTy.bits .f32
  inb_S12x16_S12x16_0_0 : ∀ a, (![0, 0] : Fin 2 → Nat) a + S12x16.size a ≤ S12x16.size a
  h_S12x16 : 0 < S12x16.numel
  inb_S10000x16_S10000x16_0_0 : ∀ a, (![0, 0] : Fin 2 → Nat) a + S10000x16.size a ≤ S10000x16.size a
  h_S10000x16 : 0 < S10000x16.numel
  bcast_S8500000x1_S8500000x16_0_1 : S8500000x1.BroadcastsInDim S8500000x16 (![0, 1] : Fin 2 → Fin S8500000x16.rank)
  bcast_S_S500000x16 : S_.BroadcastsInDim S500000x16 (![] : Fin 0 → Fin S500000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S8500000x1_S8500000x8_0_1 : S8500000x1.BroadcastsInDim S8500000x8 (![0, 1] : Fin 2 → Fin S8500000x8.rank)
  bcast_S_S500000x8 : S_.BroadcastsInDim S500000x8 (![] : Fin 0 → Fin S500000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  shapeCasts_S1_S1x1 : S1.ShapeCasts S1x1
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  dot_S10000x12_S12x16_S10000x16_1_0_0_1_n_n_wf : DotDims.WF S10000x12 S12x16 S10000x16 [1] [0] [0] [1] [] []
  gather_S500000x16_S8500000x1_S8500000x16_1_0_n_n_0_1_116_wf : GatherDims.WF S500000x16 S8500000x1 S8500000x16 [1] [0] [] [0] [] 1 ![1, 16]
  scatter_S500000x16_S8500000x1_S8500000x16_1_0_0_1_wf : ScatterDims.WF S500000x16 S8500000x1 S8500000x16 [1] [0] [0] 1
  dot_S10000x16_S16x8_S10000x8_1_0_0_1_n_n_wf : DotDims.WF S10000x16 S16x8 S10000x8 [1] [0] [0] [1] [] []
  gather_S500000x8_S8500000x1_S8500000x8_1_0_n_n_0_1_18_wf : GatherDims.WF S500000x8 S8500000x1 S8500000x8 [1] [0] [] [0] [] 1 ![1, 8]
  scatter_S500000x8_S8500000x1_S8500000x8_1_0_0_1_wf : ScatterDims.WF S500000x8 S8500000x1 S8500000x8 [1] [0] [0] 1
  dot_S10000x8_S8x1_S10000x1_1_0_0_1_n_n_wf : DotDims.WF S10000x8 S8x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x12.size a ≤ S500000x12.size a
  hwx0_0 : ∀ i : grid0.Coords, EltTy.bits .f32 = 32 ∨ (Rect.block (s := S500000x12) S10000x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x16.size a ≤ S12x16.size a
  hwx0_1 : ∀ i : grid0.Coords, EltTy.bits .f32 = 32 ∨ (Rect.block (s := S12x16) S12x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S500000x16.size a
  hwx0_2 : ∀ i : grid0.Coords, EltTy.bits .f32 = 32 ∨ (Rect.block (s := S500000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S500000x16.size a
  hwx1_0 : ∀ i : grid1.Coords, EltTy.bits .f32 = 32 ∨ (Rect.block (s := S500000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S500000x16.size a
  hwx1_2 : ∀ i : grid1.Coords, EltTy.bits .f32 = 32 ∨ (Rect.block (s := S500000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S500000x16.size a
  hwx2_0 : ∀ i : grid2.Coords, EltTy.bits .f32 = 32 ∨ (Rect.block (s := S500000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x8.size a ≤ S16x8.size a
  hwx2_1 : ∀ i : grid2.Coords, EltTy.bits .f32 = 32 ∨ (Rect.block (s := S16x8) S16x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S500000x8.size a
  hwx2_2 : ∀ i : grid2.Coords, EltTy.bits .f32 = 32 ∨ (Rect.block (s := S500000x8) S10000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x8.size a ≤ S500000x8.size a
  hwx3_0 : ∀ i : grid3.Coords, EltTy.bits .f32 = 32 ∨ (Rect.block (s := S500000x8) S10000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x8.size a ≤ S1x8.size a
  hwx3_1 : ∀ i : grid3.Coords, EltTy.bits .f32 = 32 ∨ (Rect.block (s := S1x8) S1x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x8.size a ≤ S500000x8.size a
  hwx3_2 : ∀ i : grid3.Coords, EltTy.bits .f32 = 32 ∨ (Rect.block (s := S500000x8) S10000x8.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x8.size a ≤ S500000x8.size a
  hwx4_0 : ∀ i : grid4.Coords, EltTy.bits .f32 = 32 ∨ (Rect.block (s := S500000x8) S10000x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x1.size a ≤ S8x1.size a
  hwx4_1 : ∀ i : grid4.Coords, EltTy.bits .f32 = 32 ∨ (Rect.block (s := S8x1) S8x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S500000x1.size a
  hwx4_3 : ∀ i : grid4.Coords, EltTy.bits .f32 = 32 ∨ (Rect.block (s := S500000x1) S10000x1.size (cc4_transform_3 i) (hinb4_3 i)).WholeWords (EltTy.packing .f32)

variable [Facts₀]

def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def dot_S10000x12_S12x16_S10000x16_1_0_0_1_n_n : DotDims S10000x12 S12x16 S10000x16 where
  lhsContracting := [1]
  rhsContracting := [0]
  lhsNonContracting := [0]
  rhsNonContracting := [1]
  lhsBatch := []
  rhsBatch := []
  wf := dot_S10000x12_S12x16_S10000x16_1_0_0_1_n_n_wf
def gather_S500000x16_S8500000x1_S8500000x16_1_0_n_n_0_1_116 : GatherDims S500000x16 S8500000x1 S8500000x16 where
  offsetDims := [1]
  collapsedSliceDims := [0]
  operandBatchingDims := []
  startIndicesBatchingDims := []
  startIndexMap := [0]
  indexVectorDim := 1
  sliceSizes := ![1, 16]
  wf := gather_S500000x16_S8500000x1_S8500000x16_1_0_n_n_0_1_116_wf
def scatter_S500000x16_S8500000x1_S8500000x16_1_0_0_1 : ScatterDims S500000x16 S8500000x1 S8500000x16 where
  updateWindowDims := [1]
  insertedWindowDims := [0]
  scatterDimsToOperandDims := [0]
  indexVectorDim := 1
  wf := scatter_S500000x16_S8500000x1_S8500000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S500000x8_S8500000x1_S8500000x8_1_0_n_n_0_1_18 : GatherDims S500000x8 S8500000x1 S8500000x8 where
  offsetDims := [1]
  collapsedSliceDims := [0]
  operandBatchingDims := []
  startIndicesBatchingDims := []
  startIndexMap := [0]
  indexVectorDim := 1
  sliceSizes := ![1, 8]
  wf := gather_S500000x8_S8500000x1_S8500000x8_1_0_n_n_0_1_18_wf
def scatter_S500000x8_S8500000x1_S8500000x8_1_0_0_1 : ScatterDims S500000x8 S8500000x1 S8500000x8 where
  updateWindowDims := [1]
  insertedWindowDims := [0]
  scatterDimsToOperandDims := [0]
  indexVectorDim := 1
  wf := scatter_S500000x8_S8500000x1_S8500000x8_1_0_0_1_wf
def dot_S10000x8_S8x1_S10000x1_1_0_0_1_n_n : DotDims S10000x8 S8x1 S10000x1 where
  lhsContracting := [1]
  rhsContracting := [0]
  lhsNonContracting := [0]
  rhsNonContracting := [1]
  lhsBatch := []
  rhsBatch := []
  wf := dot_S10000x8_S8x1_S10000x1_1_0_0_1_n_n_wf

abbrev win0_0 : Pipeline.Window sig grid0 :=
  Pipeline.Window.ofSpec (Memref.whole main_arg0) S10000x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S12x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S10000x8.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S10000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S8x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S500000x12 : Shape := ⟨2, ![500000, 12]⟩
abbrev S2x8000000 : Shape := ⟨2, ![2, 8000000]⟩
abbrev S12x16 : Shape := ⟨2, ![12, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S1x8000000 : Shape := ⟨2, ![1, 8000000]⟩
abbrev S8000000 : Shape := ⟨1, ![8000000]⟩
abbrev S500000 : Shape := ⟨1, ![500000]⟩
abbrev S8500000 : Shape := ⟨1, ![8500000]⟩
abbrev S500000x16 : Shape := ⟨2, ![500000, 16]⟩
abbrev S_ : Shape := ⟨0, ![]⟩
abbrev S8500000x1 : Shape := ⟨2, ![8500000, 1]⟩
abbrev S8500000x16 : Shape := ⟨2, ![8500000, 16]⟩
abbrev S1x16 : Shape := ⟨2, ![1, 16]⟩
abbrev S500000x8 : Shape := ⟨2, ![500000, 8]⟩
abbrev S8500000x8 : Shape := ⟨2, ![8500000, 8]⟩
abbrev S1x8 : Shape := ⟨2, ![1, 8]⟩
abbrev S500000x1 : Shape := ⟨2, ![500000, 1]⟩
abbrev S1x1 : Shape := ⟨2, ![1, 1]⟩

abbrev nBuf : Space → Nat
  | .hbm => 132
  | .vmem => 0
  | .smem => 0
  | _ => 0

abbrev hbmTy0_0 (i : Nat) : BufTy := match i % 128 with
  | 0 => ⟨S500000x12, .f32⟩
  | 1 => ⟨S2x8000000, .i32⟩
  | 2 => ⟨S12x16, .f32⟩
  | 3 => ⟨S16, .f32⟩
  | 4 => ⟨S16x8, .f32⟩
  | 5 => ⟨S8, .f32⟩
  | 6 => ⟨S8x1, .f32⟩
  | 7 => ⟨S1, .f32⟩
  | 8 => ⟨S1x8000000, .i32⟩
  | 9 => ⟨S8000000, .i32⟩
  | 10 => ⟨S1x8000000, .i32⟩
  | 11 => ⟨S8000000, .i32⟩
  | 12 => ⟨S500000, .i32⟩
  | 13 => ⟨S8500000, .i32⟩
  | 14 => ⟨S8500000, .i32⟩
  | 15 => ⟨S500000x16, .f32⟩
  | 16 => ⟨S_, .f32⟩
  | 17 => ⟨S8500000, .f32⟩
  | 18 => ⟨S_, .f32⟩
  | 19 => ⟨S500000, .f32⟩
  | 20 => ⟨S8500000x1, .i32⟩
  | 21 => ⟨S500000, .f32⟩
  | 22 => ⟨S500000, .f32⟩
  | 23 => ⟨S_, .i32⟩
  | 24 => ⟨S8500000, .i32⟩
  | 25 => ⟨S8500000, .i1⟩
  | 26 => ⟨S_, .i32⟩
  | 27 => ⟨S8500000, .i32⟩
  | 28 => ⟨S8500000, .i32⟩
  | 29 => ⟨S8500000, .i32⟩
  | 30 => ⟨S8500000x1, .i32⟩
  | 31 => ⟨S8500000, .f32⟩
  | 32 => ⟨S_, .i32⟩
  | 33 => ⟨S8500000, .i32⟩
  | 34 => ⟨S8500000, .i1⟩
  | 35 => ⟨S_, .i32⟩
  | 36 => ⟨S8500000, .i32⟩
  | 37 => ⟨S8500000, .i32⟩
  | 38 => ⟨S8500000, .i32⟩
  | 39 => ⟨S8500000x1, .i32⟩
  | 40 => ⟨S8500000, .f32⟩
  | 41 => ⟨S8500000, .f32⟩
  | 42 => ⟨S_, .i32⟩
  | 43 => ⟨S8500000, .i32⟩
  | 44 => ⟨S8500000, .i1⟩
  | 45 => ⟨S_, .i32⟩
  | 46 => ⟨S8500000, .i32⟩
  | 47 => ⟨S8500000, .i32⟩
  | 48 => ⟨S8500000, .i32⟩
  | 49 => ⟨S8500000x1, .i32⟩
  | 50 => ⟨S8500000x16, .f32⟩
  | 51 => ⟨S8500000x1, .f32⟩
  | 52 => ⟨S8500000x16, .f32⟩
  | 53 => ⟨S8500000x16, .f32⟩
  | 54 => ⟨S_, .f32⟩
  | 55 => ⟨S500000x16, .f32⟩
  | 56 => ⟨S8500000x1, .i32⟩
  | 57 => ⟨S500000x16, .f32⟩
  | 58 => ⟨S1x16, .f32⟩
  | 59 => ⟨S500000x16, .f32⟩
  | 60 => ⟨S500000x16, .f32⟩
  | 61 => ⟨S_, .f32⟩
  | 62 => ⟨S500000x16, .f32⟩
  | 63 => ⟨S500000x16, .f32⟩
  | 64 => ⟨S1x8000000, .i32⟩
  | 65 => ⟨S8000000, .i32⟩
  | 66 => ⟨S1x8000000, .i32⟩
  | 67 => ⟨S8000000, .i32⟩
  | 68 => ⟨S500000, .i32⟩
  | 69 => ⟨S8500000, .i32⟩
  | 70 => ⟨S8500000, .i32⟩
  | 71 => ⟨S500000x8, .f32⟩
  | 72 => ⟨S_, .f32⟩
  | 73 => ⟨S8500000, .f32⟩
  | 74 => ⟨S_, .f32⟩
  | 75 => ⟨S500000, .f32⟩
  | 76 => ⟨S8500000x1, .i32⟩
  | 77 => ⟨S500000, .f32⟩
  | 78 => ⟨S500000, .f32⟩
  | 79 => ⟨S_, .i32⟩
  | 80 => ⟨S8500000, .i32⟩
  | 81 => ⟨S8500000, .i1⟩
  | 82 => ⟨S_, .i32⟩
  | 83 => ⟨S8500000, .i32⟩
  | 84 => ⟨S8500000, .i32⟩
  | 85 => ⟨S8500000, .i32⟩
  | 86 => ⟨S8500000x1, .i32⟩
  | 87 => ⟨S8500000, .f32⟩
  | 88 => ⟨S_, .i32⟩
  | 89 => ⟨S8500000, .i32⟩
  | 90 => ⟨S8500000, .i1⟩
  | 91 => ⟨S_, .i32⟩
  | 92 => ⟨S8500000, .i32⟩
  | 93 => ⟨S8500000, .i32⟩
  | 94 => ⟨S8500000, .i32⟩
  | 95 => ⟨S8500000x1, .i32⟩
  | 96 => ⟨S8500000, .f32⟩
  | 97 => ⟨S8500000, .f32⟩
  | 98 => ⟨S_, .i32⟩
  | 99 => ⟨S8500000, .i32⟩
  | 100 => ⟨S8500000, .i1⟩
  | 101 => ⟨S_, .i32⟩
  | 102 => ⟨S8500000, .i32⟩
  | 103 => ⟨S8500000, .i32⟩
  | 104 => ⟨S8500000, .i32⟩
  | 105 => ⟨S8500000x1, .i32⟩
  | 106 => ⟨S8500000x8, .f32⟩
  | 107 => ⟨S8500000x1, .f32⟩
  | 108 => ⟨S8500000x8, .f32⟩
  | 109 => ⟨S8500000x8, .f32⟩
  | 110 => ⟨S_, .f32⟩
  | 111 => ⟨S500000x8, .f32⟩
  | 112 => ⟨S8500000x1, .i32⟩
  | 113 => ⟨S500000x8, .f32⟩
  | 114 => ⟨S1x8, .f32⟩
  | 115 => ⟨S500000x8, .f32⟩
  | 116 => ⟨S500000x8, .f32⟩
  | 117 => ⟨S_, .f32⟩
  | 118 => ⟨S500000x8, .f32⟩
  | 119 => ⟨S500000x8, .f32⟩
  | 120 => ⟨S500000x1, .f32⟩
  | 121 => ⟨S1x1, .f32⟩
  | 122 => ⟨S500000x1, .f32⟩
  | 123 => ⟨S500000x1, .f32⟩
  | 124 => ⟨S500000x1, .f32⟩
  | 125 => ⟨S500000x1, .f32⟩
  | 126 => ⟨S_, .f32⟩
  | 127 => ⟨S500000x1, .f32⟩
  | _ => ⟨S500000x12, .f32⟩

abbrev hbmTy0_1 (i : Nat) : BufTy := match i % 128 with
  | 0 => ⟨S500000x1, .f32⟩
  | 1 => ⟨S_, .f32⟩
  | 2 => ⟨S500000x1, .f32⟩
  | 3 => ⟨S500000x1, .f32⟩
  | _ => ⟨S500000x12, .f32⟩

abbrev hbmTy (i : Nat) : BufTy := match i / 128 with
  | 0 => hbmTy0_0 i
  | 1 => hbmTy0_1 i
  | _ => ⟨S500000x12, .f32⟩

abbrev bufTy : (tb : Table) → Fin (tcTables nBuf tb) → BufTy
  | .hbm, ⟨i, _⟩ => hbmTy i
  | _, _ => ⟨S500000x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_9 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_c_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_13 : Ref sig .tc := ⟨.hbm, 98, rfl⟩
abbrev main_v73 : Ref sig .tc := ⟨.hbm, 99, rfl⟩
abbrev main_v74 : Ref sig .tc := ⟨.hbm, 100, rfl⟩
abbrev main_c_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_15 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_cst_17 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  concatenates_S8000000_S500000_S8500000_d0 : Shape.Concatenates [S8000000, S500000] S8500000 0
  bcast_S_S8500000 : S_.BroadcastsInDim S8500000 (![] : Fin 0 → Fin S8500000.rank)
  bcast_S_S500000 : S_.BroadcastsInDim S500000 (![] : Fin 0 → Fin S500000.rank)
  bcast_S8500000_S8500000x1_0 : S8500000.BroadcastsInDim S8500000x1 (![0] : Fin 1 → Fin S8500000x1.rank)
  bcast_S8500000x1_S8500000x16_0_1 : S8500000x1.BroadcastsInDim S8500000x16 (![0, 1] : Fin 2 → Fin S8500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S8500000x1_S8500000x8_0_1 : S8500000x1.BroadcastsInDim S8500000x8 (![0, 1] : Fin 2 → Fin S8500000x8.rank)
  bcast_S_S500000x8 : S_.BroadcastsInDim S500000x8 (![] : Fin 0 → Fin S500000x8.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  dot_S500000x12_S12x16_S500000x16_1_0_0_1_n_n_wf : DotDims.WF S500000x12 S12x16 S500000x16 [1] [0] [0] [1] [] []
  scatter_S500000_S8500000x1_S8500000_n_0_0_1_wf : ScatterDims.WF S500000 S8500000x1 S8500000 [] [0] [0] 1
  gather_S500000_S8500000x1_S8500000_n_0_n_n_0_1_1_wf : GatherDims.WF S500000 S8500000x1 S8500000 [] [0] [] [0] [] 1 ![1]
  gather_S500000x16_S8500000x1_S8500000x16_1_0_n_n_0_1_116_wf : GatherDims.WF S500000x16 S8500000x1 S8500000x16 [1] [0] [] [0] [] 1 ![1, 16]
  scatter_S500000x16_S8500000x1_S8500000x16_1_0_0_1_wf : ScatterDims.WF S500000x16 S8500000x1 S8500000x16 [1] [0] [0] 1
  dot_S500000x16_S16x8_S500000x8_1_0_0_1_n_n_wf : DotDims.WF S500000x16 S16x8 S500000x8 [1] [0] [0] [1] [] []
  gather_S500000x8_S8500000x1_S8500000x8_1_0_n_n_0_1_18_wf : GatherDims.WF S500000x8 S8500000x1 S8500000x8 [1] [0] [] [0] [] 1 ![1, 8]
  scatter_S500000x8_S8500000x1_S8500000x8_1_0_0_1_wf : ScatterDims.WF S500000x8 S8500000x1 S8500000x8 [1] [0] [0] 1
  dot_S500000x8_S8x1_S500000x1_1_0_0_1_n_n_wf : DotDims.WF S500000x8 S8x1 S500000x1 [1] [0] [0] [1] [] []

variable [Facts₀]

def dot_S500000x12_S12x16_S500000x16_1_0_0_1_n_n : DotDims S500000x12 S12x16 S500000x16 where
  lhsContracting := [1]
  rhsContracting := [0]
  lhsNonContracting := [0]
  rhsNonContracting := [1]
  lhsBatch := []
  rhsBatch := []
  wf := dot_S500000x12_S12x16_S500000x16_1_0_0_1_n_n_wf
def scatter_S500000_S8500000x1_S8500000_n_0_0_1 : ScatterDims S500000 S8500000x1 S8500000 where
  updateWindowDims := []
  insertedWindowDims := [0]
  scatterDimsToOperandDims := [0]
  indexVectorDim := 1
  wf := scatter_S500000_S8500000x1_S8500000_n_0_0_1_wf
def gather_S500000_S8500000x1_S8500000_n_0_n_n_0_1_1 : GatherDims S500000 S8500000x1 S8500000 where
  offsetDims := []
  collapsedSliceDims := [0]
  operandBatchingDims := []
  startIndicesBatchingDims := []
  startIndexMap := [0]
  indexVectorDim := 1
  sliceSizes := ![1]
  wf := gather_S500000_S8500000x1_S8500000_n_0_n_n_0_1_1_wf
def gather_S500000x16_S8500000x1_S8500000x16_1_0_n_n_0_1_116 : GatherDims S500000x16 S8500000x1 S8500000x16 where
  offsetDims := [1]
  collapsedSliceDims := [0]
  operandBatchingDims := []
  startIndicesBatchingDims := []
  startIndexMap := [0]
  indexVectorDim := 1
  sliceSizes := ![1, 16]
  wf := gather_S500000x16_S8500000x1_S8500000x16_1_0_n_n_0_1_116_wf
def scatter_S500000x16_S8500000x1_S8500000x16_1_0_0_1 : ScatterDims S500000x16 S8500000x1 S8500000x16 where
  updateWindowDims := [1]
  insertedWindowDims := [0]
  scatterDimsToOperandDims := [0]
  indexVectorDim := 1
  wf := scatter_S500000x16_S8500000x1_S8500000x16_1_0_0_1_wf
def dot_S500000x16_S16x8_S500000x8_1_0_0_1_n_n : DotDims S500000x16 S16x8 S500000x8 where
  lhsContracting := [1]
  rhsContracting := [0]
  lhsNonContracting := [0]
  rhsNonContracting := [1]
  lhsBatch := []
  rhsBatch := []
  wf := dot_S500000x16_S16x8_S500000x8_1_0_0_1_n_n_wf
def gather_S500000x8_S8500000x1_S8500000x8_1_0_n_n_0_1_18 : GatherDims S500000x8 S8500000x1 S8500000x8 where
  offsetDims := [1]
  collapsedSliceDims := [0]
  operandBatchingDims := []
  startIndicesBatchingDims := []
  startIndexMap := [0]
  indexVectorDim := 1
  sliceSizes := ![1, 8]
  wf := gather_S500000x8_S8500000x1_S8500000x8_1_0_n_n_0_1_18_wf
def scatter_S500000x8_S8500000x1_S8500000x8_1_0_0_1 : ScatterDims S500000x8 S8500000x1 S8500000x8 where
  updateWindowDims := [1]
  insertedWindowDims := [0]
  scatterDimsToOperandDims := [0]
  indexVectorDim := 1
  wf := scatter_S500000x8_S8500000x1_S8500000x8_1_0_0_1_wf
def dot_S500000x8_S8x1_S500000x1_1_0_0_1_n_n : DotDims S500000x8 S8x1 S500000x1 where
  lhsContracting := [1]
  rhsContracting := [0]
  lhsNonContracting := [0]
  rhsNonContracting := [1]
  lhsBatch := []
  rhsBatch := []
  wf := dot_S500000x8_S8x1_S500000x1_1_0_0_1_n_n_wf

class Facts : Prop extends Facts₀ where

variable [Facts]
-- ==== Proof.KernelRun.lean ====
/-
  The five-launch program's run with its RESULT named.  Every weakly fair execution of the program ends, faults nowhere,
  leaves the eight argument arrays as launched, and leaves the result array holding what the last launch's write-backs
  folded into it: the memory after the ninth segment (four stretches of host operations, five launches), read at the result's
  buffer.  The segments, their boundary memories and the launch are the frame's; only the final reading is widened by one
  buffer.
-/
import proofs.«165820_j74174085202653_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run, with the result array after it named: the last boundary memory at the result's buffer. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Hand

end
-- ==== Proof.Kept.lean ====
/-
  What the launches and the host stretches between them leave ALONE.  The program's memory is followed through nine
  boundaries (before and after each of the five launches).  No host operation and no launch writes an argument array, the two
  edge-endpoint lists (sources and targets with the self loops appended) or the per-edge normalisation
  (dinv[source] · dinv[target], dinv the inverse square root of the in-degree counts): each is computed, if at all, by the first
  host stretch and then only read.  So at every later boundary each of them still holds its first value — for the
  arguments the launch contents, for the three derived arrays the same function of the edge list that the host
  reference computes, operation for operation.
-/
import proofs.«165820_j74174085202653_2_alg».proof.Proof.Gen.KernelIdeal.Frame
import proofs.«165820_j74174085202653_2_alg».proof.Proof.Gen.ReferenceIdeal.Read
import Idealize.ShloMosaic.Lib.StableHlo.Run

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo

variable (m : (ℓ : Loc nD τ sig) → Buf (Elt Ideal) ℓ) (ρ : Dev nD → PrngReg) (c : Dev nD)

theorem at1_arg0 : W1 m ρ c (Proc.devRef .tc main_arg0) = m ((c : Thread nD τ).loc main_arg0) :=
  by show StableHlo.after hostOps0 (W0 m ρ c) (Proc.devRef .tc main_arg0) = _; after_results_simp <;> rfl

theorem at1_arg2 : W1 m ρ c (Proc.devRef .tc main_arg2) = m ((c : Thread nD τ).loc main_arg2) :=
  by show StableHlo.after hostOps0 (W0 m ρ c) (Proc.devRef .tc main_arg2) = _; after_results_simp <;> rfl

theorem at1_arg3 : W1 m ρ c (Proc.devRef .tc main_arg3) = m ((c : Thread nD τ).loc main_arg3) :=
  by show StableHlo.after hostOps0 (W0 m ρ c) (Proc.devRef .tc main_arg3) = _; after_results_simp <;> rfl
theorem at2_arg3 : W2 m ρ c (Proc.devRef .tc main_arg3) = m ((c : Thread nD τ).loc main_arg3) :=
  (W2_of_ne m ρ c main_arg3 (by decide)).trans (at1_arg3 m ρ c)

theorem at1_arg4 : W1 m ρ c (Proc.devRef .tc main_arg4) = m ((c : Thread nD τ).loc main_arg4) :=
  by show StableHlo.after hostOps0 (W0 m ρ c) (Proc.devRef .tc main_arg4) = _; after_results_simp <;> rfl
theorem at2_arg4 : W2 m ρ c (Proc.devRef .tc main_arg4) = m ((c : Thread nD τ).loc main_arg4) :=
  (W2_of_ne m ρ c main_arg4 (by decide)).trans (at1_arg4 m ρ c)
theorem at3_arg4 : W3 m ρ c (Proc.devRef .tc main_arg4) = m ((c : Thread nD τ).loc main_arg4) :=
  by show StableHlo.after hostOps1 (W2 m ρ c) (Proc.devRef .tc main_arg4) = _; after_results_simp; exact at2_arg4 m ρ c
theorem at4_arg4 : W4 m ρ c (Proc.devRef .tc main_arg4) = m ((c : Thread nD τ).loc main_arg4) :=
  (W4_of_ne m ρ c main_arg4 (by decide)).trans (at3_arg4 m ρ c)

theorem at1_arg5 : W1 m ρ c (Proc.devRef .tc main_arg5) = m ((c : Thread nD τ).loc main_arg5) :=
  by show StableHlo.after hostOps0 (W0 m ρ c) (Proc.devRef .tc main_arg5) = _; after_results_simp <;> rfl
theorem at2_arg5 : W2 m ρ c (Proc.devRef .tc main_arg5) = m ((c : Thread nD τ).loc main_arg5) :=
  (W2_of_ne m ρ c main_arg5 (by decide)).trans (at1_arg5 m ρ c)
theorem at3_arg5 : W3 m ρ c (Proc.devRef .tc main_arg5) = m ((c : Thread nD τ).loc main_arg5) :=
  by show StableHlo.after hostOps1 (W2 m ρ c) (Proc.devRef .tc main_arg5) = _; after_results_simp; exact at2_arg5 m ρ c
theorem at4_arg5 : W4 m ρ c (Proc.devRef .tc main_arg5) = m ((c : Thread nD τ).loc main_arg5) :=
  (W4_of_ne m ρ c main_arg5 (by decide)).trans (at3_arg5 m ρ c)
theorem at5_arg5 : W5 m ρ c (Proc.devRef .tc main_arg5) = m ((c : Thread nD τ).loc main_arg5) :=
  (W5_of_ne m ρ c main_arg5 (by decide)).trans (at4_arg5 m ρ c)

theorem at1_arg6 : W1 m ρ c (Proc.devRef .tc main_arg6) = m ((c : Thread nD τ).loc main_arg6) :=
  by show StableHlo.after hostOps0 (W0 m ρ c) (Proc.devRef .tc main_arg6) = _; after_results_simp <;> rfl
theorem at2_arg6 : W2 m ρ c (Proc.devRef .tc main_arg6) = m ((c : Thread nD τ).loc main_arg6) :=
  (W2_of_ne m ρ c main_arg6 (by decide)).trans (at1_arg6 m ρ c)
theorem at3_arg6 : W3 m ρ c (Proc.devRef .tc main_arg6) = m ((c : Thread nD τ).loc main_arg6) :=
  by show StableHlo.after hostOps1 (W2 m ρ c) (Proc.devRef .tc main_arg6) = _; after_results_simp; exact at2_arg6 m ρ c
theorem at4_arg6 : W4 m ρ c (Proc.devRef .tc main_arg6) = m ((c : Thread nD τ).loc main_arg6) :=
  (W4_of_ne m ρ c main_arg6 (by decide)).trans (at3_arg6 m ρ c)
theorem at5_arg6 : W5 m ρ c (Proc.devRef .tc main_arg6) = m ((c : Thread nD τ).loc main_arg6) :=
  (W5_of_ne m ρ c main_arg6 (by decide)).trans (at4_arg6 m ρ c)
theorem at6_arg6 : W6 m ρ c (Proc.devRef .tc main_arg6) = m ((c : Thread nD τ).loc main_arg6) :=
  by show StableHlo.after hostOps3 (W5 m ρ c) (Proc.devRef .tc main_arg6) = _; after_results_simp; exact at5_arg6 m ρ c
theorem at7_arg6 : W7 m ρ c (Proc.devRef .tc main_arg6) = m ((c : Thread nD τ).loc main_arg6) :=
  (W7_of_ne m ρ c main_arg6 (by decide)).trans (at6_arg6 m ρ c)
theorem at8_arg6 : W8 m ρ c (Proc.devRef .tc main_arg6) = m ((c : Thread nD τ).loc main_arg6) :=
  by show StableHlo.after hostOps4 (W7 m ρ c) (Proc.devRef .tc main_arg6) = _; after_results_simp; exact at7_arg6 m ρ c

theorem at1_arg7 : W1 m ρ c (Proc.devRef .tc main_arg7) = m ((c : Thread nD τ).loc main_arg7) :=
  by show StableHlo.after hostOps0 (W0 m ρ c) (Proc.devRef .tc main_arg7) = _; after_results_simp <;> rfl
theorem at2_arg7 : W2 m ρ c (Proc.devRef .tc main_arg7) = m ((c : Thread nD τ).loc main_arg7) :=
  (W2_of_ne m ρ c main_arg7 (by decide)).trans (at1_arg7 m ρ c)
theorem at3_arg7 : W3 m ρ c (Proc.devRef .tc main_arg7) = m ((c : Thread nD τ).loc main_arg7) :=
  by show StableHlo.after hostOps1 (W2 m ρ c) (Proc.devRef .tc main_arg7) = _; after_results_simp; exact at2_arg7 m ρ c
theorem at4_arg7 : W4 m ρ c (Proc.devRef .tc main_arg7) = m ((c : Thread nD τ).loc main_arg7) :=
  (W4_of_ne m ρ c main_arg7 (by decide)).trans (at3_arg7 m ρ c)
theorem at5_arg7 : W5 m ρ c (Proc.devRef .tc main_arg7) = m ((c : Thread nD τ).loc main_arg7) :=
  (W5_of_ne m ρ c main_arg7 (by decide)).trans (at4_arg7 m ρ c)
theorem at6_arg7 : W6 m ρ c (Proc.devRef .tc main_arg7) = m ((c : Thread nD τ).loc main_arg7) :=
  by show StableHlo.after hostOps3 (W5 m ρ c) (Proc.devRef .tc main_arg7) = _; after_results_simp; exact at5_arg7 m ρ c
theorem at7_arg7 : W7 m ρ c (Proc.devRef .tc main_arg7) = m ((c : Thread nD τ).loc main_arg7) :=
  (W7_of_ne m ρ c main_arg7 (by decide)).trans (at6_arg7 m ρ c)

theorem at1_v5 : W1 m ρ c (Proc.devRef .tc main_v5) = Cert.ReferenceIdeal.Read.val_main_v5 (F := Ideal) (m ((c : Thread nD τ).loc main_arg1)) :=
  by show StableHlo.after hostOps0 (W0 m ρ c) (Proc.devRef .tc main_v5) = _; after_results_simp <;> rfl
theorem at2_v5 : W2 m ρ c (Proc.devRef .tc main_v5) = Cert.ReferenceIdeal.Read.val_main_v5 (F := Ideal) (m ((c : Thread nD τ).loc main_arg1)) :=
  (W2_of_ne m ρ c main_v5 (by decide)).trans (at1_v5 m ρ c)
theorem at3_v5 : W3 m ρ c (Proc.devRef .tc main_v5) = Cert.ReferenceIdeal.Read.val_main_v5 (F := Ideal) (m ((c : Thread nD τ).loc main_arg1)) :=
  by show StableHlo.after hostOps1 (W2 m ρ c) (Proc.devRef .tc main_v5) = _; after_results_simp; exact at2_v5 m ρ c
theorem at4_v5 : W4 m ρ c (Proc.devRef .tc main_v5) = Cert.ReferenceIdeal.Read.val_main_v5 (F := Ideal) (m ((c : Thread nD τ).loc main_arg1)) :=
  (W4_of_ne m ρ c main_v5 (by decide)).trans (at3_v5 m ρ c)
theorem at5_v5 : W5 m ρ c (Proc.devRef .tc main_v5) = Cert.ReferenceIdeal.Read.val_main_v5 (F := Ideal) (m ((c : Thread nD τ).loc main_arg1)) :=
  (W5_of_ne m ρ c main_v5 (by decide)).trans (at4_v5 m ρ c)

theorem at1_v6 : W1 m ρ c (Proc.devRef .tc main_v6) = Cert.ReferenceIdeal.Read.val_main_v6 (F := Ideal) (m ((c : Thread nD τ).loc main_arg1)) :=
  by show StableHlo.after hostOps0 (W0 m ρ c) (Proc.devRef .tc main_v6) = _; after_results_simp <;> rfl
theorem at2_v6 : W2 m ρ c (Proc.devRef .tc main_v6) = Cert.ReferenceIdeal.Read.val_main_v6 (F := Ideal) (m ((c : Thread nD τ).loc main_arg1)) :=
  (W2_of_ne m ρ c main_v6 (by decide)).trans (at1_v6 m ρ c)
theorem at3_v6 : W3 m ρ c (Proc.devRef .tc main_v6) = Cert.ReferenceIdeal.Read.val_main_v6 (F := Ideal) (m ((c : Thread nD τ).loc main_arg1)) :=
  by show StableHlo.after hostOps1 (W2 m ρ c) (Proc.devRef .tc main_v6) = _; after_results_simp; exact at2_v6 m ρ c
theorem at4_v6 : W4 m ρ c (Proc.devRef .tc main_v6) = Cert.ReferenceIdeal.Read.val_main_v6 (F := Ideal) (m ((c : Thread nD τ).loc main_arg1)) :=
  (W4_of_ne m ρ c main_v6 (by decide)).trans (at3_v6 m ρ c)
theorem at5_v6 : W5 m ρ c (Proc.devRef .tc main_v6) = Cert.ReferenceIdeal.Read.val_main_v6 (F := Ideal) (m ((c : Thread nD τ).loc main_arg1)) :=
  (W5_of_ne m ρ c main_v6 (by decide)).trans (at4_v6 m ρ c)

theorem at1_v26 : W1 m ρ c (Proc.devRef .tc main_v26) = Cert.ReferenceIdeal.Read.val_main_v27 (F := Ideal) (m ((c : Thread nD τ).loc main_arg1)) :=
  by show StableHlo.after hostOps0 (W0 m ρ c) (Proc.devRef .tc main_v26) = _; after_results_simp <;> rfl
theorem at2_v26 : W2 m ρ c (Proc.devRef .tc main_v26) = Cert.ReferenceIdeal.Read.val_main_v27 (F := Ideal) (m ((c : Thread nD τ).loc main_arg1)) :=
  (W2_of_ne m ρ c main_v26 (by decide)).trans (at1_v26 m ρ c)
theorem at3_v26 : W3 m ρ c (Proc.devRef .tc main_v26) = Cert.ReferenceIdeal.Read.val_main_v27 (F := Ideal) (m ((c : Thread nD τ).loc main_arg1)) :=
  by show StableHlo.after hostOps1 (W2 m ρ c) (Proc.devRef .tc main_v26) = _; after_results_simp; exact at2_v26 m ρ c
theorem at4_v26 : W4 m ρ c (Proc.devRef .tc main_v26) = Cert.ReferenceIdeal.Read.val_main_v27 (F := Ideal) (m ((c : Thread nD τ).loc main_arg1)) :=
  (W4_of_ne m ρ c main_v26 (by decide)).trans (at3_v26 m ρ c)
theorem at5_v26 : W5 m ρ c (Proc.devRef .tc main_v26) = Cert.ReferenceIdeal.Read.val_main_v27 (F := Ideal) (m ((c : Thread nD τ).loc main_arg1)) :=
  (W5_of_ne m ρ c main_v26 (by decide)).trans (at4_v26 m ρ c)

end Cert.KernelIdeal.Kept

end
-- ==== Proof.DotSums.lean ====
/-
  The three matrix products of the network, each in its two spellings, read at one entry over the extended reals.
  The host multiplies the whole [500000, K] activation by the [K, N] weight; a launch's body multiplies one block of
  10000 rows by the same weight into a zero accumulator.  Either way entry (r, c) is the sum over the K inner positions
  of (row r of the left operand) times (column c of the right one): no rounding, no order of summation.  Stated with the
  sum over `Fin K` and the operands' indices spelt by coordinates, so that the two spellings meet term by term.
-/
import proofs.«165820_j74174085202653_2_alg».proof.Proof.Gen.KernelIdeal
import proofs.«165820_j74174085202653_2_alg».proof.Proof.Gen.ReferenceIdeal
import Idealize.ShloMosaic.PureOps.Ideal
import Idealize.ShloMosaic.PureOps.Ideal.Laws
import Idealize.ShloMosaic.Lib.ValueIdx

noncomputable section

namespace Cert.Hand.DotSums

open Idealize.ShloMosaic Idealize.ShloMosaic.TcCoe
open Cert.KernelIdeal

/-! ### The host's product of a [500000, 12] by a [12, 16] array -/

theorem lhs0_hostA (i : S500000x16.Idx) (q : Cert.ReferenceIdeal.dot_S500000x12_S12x16_S500000x16_1_0_0_1_n_n.contr.Idx) : (Cert.ReferenceIdeal.dot_S500000x12_S12x16_S500000x16_1_0_0_1_n_n.lhsIdx i q 0).val = (i 0).val := by
  unfold DotDims.lhsIdx
  rw [dif_neg (show ¬(0 : Fin S500000x12.rank) ∈ Cert.ReferenceIdeal.dot_S500000x12_S12x16_S500000x16_1_0_0_1_n_n.lhsBatch by decide), dif_pos (show (0 : Fin S500000x12.rank) ∈ Cert.ReferenceIdeal.dot_S500000x12_S12x16_S500000x16_1_0_0_1_n_n.lhsNonContracting by decide)]
  rfl
theorem lhs1_hostA (i : S500000x16.Idx) (q : Cert.ReferenceIdeal.dot_S500000x12_S12x16_S500000x16_1_0_0_1_n_n.contr.Idx) : (Cert.ReferenceIdeal.dot_S500000x12_S12x16_S500000x16_1_0_0_1_n_n.lhsIdx i q 1).val = (q ⟨0, by decide⟩).val :=
  Cert.ReferenceIdeal.dot_S500000x12_S12x16_S500000x16_1_0_0_1_n_n.lhsIdx_val_of_single rfl i q
theorem rhs0_hostA (i : S500000x16.Idx) (q : Cert.ReferenceIdeal.dot_S500000x12_S12x16_S500000x16_1_0_0_1_n_n.contr.Idx) : (Cert.ReferenceIdeal.dot_S500000x12_S12x16_S500000x16_1_0_0_1_n_n.rhsIdx i q 0).val = (q ⟨0, by decide⟩).val :=
  Cert.ReferenceIdeal.dot_S500000x12_S12x16_S500000x16_1_0_0_1_n_n.rhsIdx_val_of_single rfl i q
theorem rhs1_hostA (i : S500000x16.Idx) (q : Cert.ReferenceIdeal.dot_S500000x12_S12x16_S500000x16_1_0_0_1_n_n.contr.Idx) : (Cert.ReferenceIdeal.dot_S500000x12_S12x16_S500000x16_1_0_0_1_n_n.rhsIdx i q 1).val = (i 1).val := by
  unfold DotDims.rhsIdx
  rw [dif_neg (show ¬(1 : Fin S12x16.rank) ∈ Cert.ReferenceIdeal.dot_S500000x12_S12x16_S500000x16_1_0_0_1_n_n.rhsBatch by decide), dif_pos (show (1 : Fin S12x16.rank) ∈ Cert.ReferenceIdeal.dot_S500000x12_S12x16_S500000x16_1_0_0_1_n_n.rhsNonContracting by decide)]
  rfl
/-- Row `i 0`, column `k` of the left operand. -/
abbrev li_hostA (i : S500000x16.Idx) (k : Fin 12) : S500000x12.Idx := fun a => match a with
  | ⟨0, _⟩ => ⟨(i 0).val, (i 0).isLt⟩
  | ⟨1, _⟩ => ⟨k.val, k.isLt⟩
/-- Row `k`, column `i 1` of the right operand. -/
abbrev ri_hostA (i : S500000x16.Idx) (k : Fin 12) : S12x16.Idx := fun a => match a with
  | ⟨0, _⟩ => ⟨k.val, k.isLt⟩
  | ⟨1, _⟩ => ⟨(i 1).val, (i 1).isLt⟩
/-- Entry `i` of the product is the sum over the 12 inner positions of row `i 0` of the left operand times column `i 1` of the right one. -/
theorem hostA_apply (x : FVec Ideal S500000x12 .f32) (w : FVec Ideal S12x16 .f32) (i : S500000x16.Idx) :
    Host.dotGeneral (F := Ideal) Cert.ReferenceIdeal.dot_S500000x12_S12x16_S500000x16_1_0_0_1_n_n none x w i = ∑ k : Fin 12, x (li_hostA i k) * w (ri_hostA i k) := by
  simp only [Host.dotGeneral]
  rw [Ideal.dotGeneral_apply, ← Equiv.sum_comp (ValueIdx.contrEquiv1 Cert.ReferenceIdeal.dot_S500000x12_S12x16_S500000x16_1_0_0_1_n_n 12 rfl rfl).symm]
  refine Finset.sum_congr rfl fun k _ => ?_
  have hk := ValueIdx.contrEquiv1_symm_val Cert.ReferenceIdeal.dot_S500000x12_S12x16_S500000x16_1_0_0_1_n_n 12 rfl rfl k
  have el : Cert.ReferenceIdeal.dot_S500000x12_S12x16_S500000x16_1_0_0_1_n_n.lhsIdx i ((ValueIdx.contrEquiv1 Cert.ReferenceIdeal.dot_S500000x12_S12x16_S500000x16_1_0_0_1_n_n 12 rfl rfl).symm k) = li_hostA i k := funext fun a => Fin.ext (by
    match a with
    | ⟨0, _⟩ => exact lhs0_hostA _ _
    | ⟨1, _⟩ => exact (lhs1_hostA _ _).trans hk)
  have er : Cert.ReferenceIdeal.dot_S500000x12_S12x16_S500000x16_1_0_0_1_n_n.rhsIdx i ((ValueIdx.contrEquiv1 Cert.ReferenceIdeal.dot_S500000x12_S12x16_S500000x16_1_0_0_1_n_n 12 rfl rfl).symm k) = ri_hostA i k := funext fun a => Fin.ext (by
    match a with
    | ⟨0, _⟩ => exact (rhs0_hostA _ _).trans hk
    | ⟨1, _⟩ => exact rhs1_hostA _ _)
  rw [el, er]

/-! ### The launch body's product of a [10000, 12] by a [12, 16] array -/

theorem lhs0_bodyA (i : S10000x16.Idx) (q : Cert.KernelIdeal.dot_S10000x12_S12x16_S10000x16_1_0_0_1_n_n.contr.Idx) : (Cert.KernelIdeal.dot_S10000x12_S12x16_S10000x16_1_0_0_1_n_n.lhsIdx i q 0).val = (i 0).val := by
  unfold DotDims.lhsIdx
  rw [dif_neg (show ¬(0 : Fin S10000x12.rank) ∈ Cert.KernelIdeal.dot_S10000x12_S12x16_S10000x16_1_0_0_1_n_n.lhsBatch by decide), dif_pos (show (0 : Fin S10000x12.rank) ∈ Cert.KernelIdeal.dot_S10000x12_S12x16_S10000x16_1_0_0_1_n_n.lhsNonContracting by decide)]
  rfl
theorem lhs1_bodyA (i : S10000x16.Idx) (q : Cert.KernelIdeal.dot_S10000x12_S12x16_S10000x16_1_0_0_1_n_n.contr.Idx) : (Cert.KernelIdeal.dot_S10000x12_S12x16_S10000x16_1_0_0_1_n_n.lhsIdx i q 1).val = (q ⟨0, by decide⟩).val :=
  Cert.KernelIdeal.dot_S10000x12_S12x16_S10000x16_1_0_0_1_n_n.lhsIdx_val_of_single rfl i q
theorem rhs0_bodyA (i : S10000x16.Idx) (q : Cert.KernelIdeal.dot_S10000x12_S12x16_S10000x16_1_0_0_1_n_n.contr.Idx) : (Cert.KernelIdeal.dot_S10000x12_S12x16_S10000x16_1_0_0_1_n_n.rhsIdx i q 0).val = (q ⟨0, by decide⟩).val :=
  Cert.KernelIdeal.dot_S10000x12_S12x16_S10000x16_1_0_0_1_n_n.rhsIdx_val_of_single rfl i q
theorem rhs1_bodyA (i : S10000x16.Idx) (q : Cert.KernelIdeal.dot_S10000x12_S12x16_S10000x16_1_0_0_1_n_n.contr.Idx) : (Cert.KernelIdeal.dot_S10000x12_S12x16_S10000x16_1_0_0_1_n_n.rhsIdx i q 1).val = (i 1).val := by
  unfold DotDims.rhsIdx
  rw [dif_neg (show ¬(1 : Fin S12x16.rank) ∈ Cert.KernelIdeal.dot_S10000x12_S12x16_S10000x16_1_0_0_1_n_n.rhsBatch by decide), dif_pos (show (1 : Fin S12x16.rank) ∈ Cert.KernelIdeal.dot_S10000x12_S12x16_S10000x16_1_0_0_1_n_n.rhsNonContracting by decide)]
  rfl
/-- Row `i 0`, column `k` of the left operand. -/
abbrev li_bodyA (i : S10000x16.Idx) (k : Fin 12) : S10000x12.Idx := fun a => match a with
  | ⟨0, _⟩ => ⟨(i 0).val, (i 0).isLt⟩
  | ⟨1, _⟩ => ⟨k.val, k.isLt⟩
/-- Row `k`, column `i 1` of the right operand. -/
abbrev ri_bodyA (i : S10000x16.Idx) (k : Fin 12) : S12x16.Idx := fun a => match a with
  | ⟨0, _⟩ => ⟨k.val, k.isLt⟩
  | ⟨1, _⟩ => ⟨(i 1).val, (i 1).isLt⟩
/-- Entry `i` of the product is the sum over the 12 inner positions of row `i 0` of the left operand times column `i 1` of the right one. -/
theorem bodyA_apply (x : FVec Ideal S10000x12 .bf16) (w : FVec Ideal S12x16 .bf16) (i : S10000x16.Idx) :
    matmul (F := Ideal) Cert.KernelIdeal.dot_S10000x12_S12x16_S10000x16_1_0_0_1_n_n none x w (constant S10000x16 .f32 0x00000000#32) i = ∑ k : Fin 12, x (li_bodyA i k) * w (ri_bodyA i k) := by
  simp only [matmul]
  rw [Ideal.matmul_constant_zero_apply, ← Equiv.sum_comp (ValueIdx.contrEquiv1 Cert.KernelIdeal.dot_S10000x12_S12x16_S10000x16_1_0_0_1_n_n 12 rfl rfl).symm]
  refine Finset.sum_congr rfl fun k _ => ?_
  have hk := ValueIdx.contrEquiv1_symm_val Cert.KernelIdeal.dot_S10000x12_S12x16_S10000x16_1_0_0_1_n_n 12 rfl rfl k
  have el : Cert.KernelIdeal.dot_S10000x12_S12x16_S10000x16_1_0_0_1_n_n.lhsIdx i ((ValueIdx.contrEquiv1 Cert.KernelIdeal.dot_S10000x12_S12x16_S10000x16_1_0_0_1_n_n 12 rfl rfl).symm k) = li_bodyA i k := funext fun a => Fin.ext (by
    match a with
    | ⟨0, _⟩ => exact lhs0_bodyA _ _
    | ⟨1, _⟩ => exact (lhs1_bodyA _ _).trans hk)
  have er : Cert.KernelIdeal.dot_S10000x12_S12x16_S10000x16_1_0_0_1_n_n.rhsIdx i ((ValueIdx.contrEquiv1 Cert.KernelIdeal.dot_S10000x12_S12x16_S10000x16_1_0_0_1_n_n 12 rfl rfl).symm k) = ri_bodyA i k := funext fun a => Fin.ext (by
    match a with
    | ⟨0, _⟩ => exact (rhs0_bodyA _ _).trans hk
    | ⟨1, _⟩ => exact rhs1_bodyA _ _)
  rw [el, er]

/-! ### The host's product of a [500000, 16] by a [16, 8] array -/

theorem lhs0_hostB (i : S500000x8.Idx) (q : Cert.ReferenceIdeal.dot_S500000x16_S16x8_S500000x8_1_0_0_1_n_n.contr.Idx) : (Cert.ReferenceIdeal.dot_S500000x16_S16x8_S500000x8_1_0_0_1_n_n.lhsIdx i q 0).val = (i 0).val := by
  unfold DotDims.lhsIdx
  rw [dif_neg (show ¬(0 : Fin S500000x16.rank) ∈ Cert.ReferenceIdeal.dot_S500000x16_S16x8_S500000x8_1_0_0_1_n_n.lhsBatch by decide), dif_pos (show (0 : Fin S500000x16.rank) ∈ Cert.ReferenceIdeal.dot_S500000x16_S16x8_S500000x8_1_0_0_1_n_n.lhsNonContracting by decide)]
  rfl
theorem lhs1_hostB (i : S500000x8.Idx) (q : Cert.ReferenceIdeal.dot_S500000x16_S16x8_S500000x8_1_0_0_1_n_n.contr.Idx) : (Cert.ReferenceIdeal.dot_S500000x16_S16x8_S500000x8_1_0_0_1_n_n.lhsIdx i q 1).val = (q ⟨0, by decide⟩).val :=
  Cert.ReferenceIdeal.dot_S500000x16_S16x8_S500000x8_1_0_0_1_n_n.lhsIdx_val_of_single rfl i q
theorem rhs0_hostB (i : S500000x8.Idx) (q : Cert.ReferenceIdeal.dot_S500000x16_S16x8_S500000x8_1_0_0_1_n_n.contr.Idx) : (Cert.ReferenceIdeal.dot_S500000x16_S16x8_S500000x8_1_0_0_1_n_n.rhsIdx i q 0).val = (q ⟨0, by decide⟩).val :=
  Cert.ReferenceIdeal.dot_S500000x16_S16x8_S500000x8_1_0_0_1_n_n.rhsIdx_val_of_single rfl i q
theorem rhs1_hostB (i : S500000x8.Idx) (q : Cert.ReferenceIdeal.dot_S500000x16_S16x8_S500000x8_1_0_0_1_n_n.contr.Idx) : (Cert.ReferenceIdeal.dot_S500000x16_S16x8_S500000x8_1_0_0_1_n_n.rhsIdx i q 1).val = (i 1).val := by
  unfold DotDims.rhsIdx
  rw [dif_neg (show ¬(1 : Fin S16x8.rank) ∈ Cert.ReferenceIdeal.dot_S500000x16_S16x8_S500000x8_1_0_0_1_n_n.rhsBatch by decide), dif_pos (show (1 : Fin S16x8.rank) ∈ Cert.ReferenceIdeal.dot_S500000x16_S16x8_S500000x8_1_0_0_1_n_n.rhsNonContracting by decide)]
  rfl
/-- Row `i 0`, column `k` of the left operand. -/
abbrev li_hostB (i : S500000x8.Idx) (k : Fin 16) : S500000x16.Idx := fun a => match a with
  | ⟨0, _⟩ => ⟨(i 0).val, (i 0).isLt⟩
  | ⟨1, _⟩ => ⟨k.val, k.isLt⟩
/-- Row `k`, column `i 1` of the right operand. -/
abbrev ri_hostB (i : S500000x8.Idx) (k : Fin 16) : S16x8.Idx := fun a => match a with
  | ⟨0, _⟩ => ⟨k.val, k.isLt⟩
  | ⟨1, _⟩ => ⟨(i 1).val, (i 1).isLt⟩
/-- Entry `i` of the product is the sum over the 16 inner positions of row `i 0` of the left operand times column `i 1` of the right one. -/
theorem hostB_apply (x : FVec Ideal S500000x16 .f32) (w : FVec Ideal S16x8 .f32) (i : S500000x8.Idx) :
    Host.dotGeneral (F := Ideal) Cert.ReferenceIdeal.dot_S500000x16_S16x8_S500000x8_1_0_0_1_n_n none x w i = ∑ k : Fin 16, x (li_hostB i k) * w (ri_hostB i k) := by
  simp only [Host.dotGeneral]
  rw [Ideal.dotGeneral_apply, ← Equiv.sum_comp (ValueIdx.contrEquiv1 Cert.ReferenceIdeal.dot_S500000x16_S16x8_S500000x8_1_0_0_1_n_n 16 rfl rfl).symm]
  refine Finset.sum_congr rfl fun k _ => ?_
  have hk := ValueIdx.contrEquiv1_symm_val Cert.ReferenceIdeal.dot_S500000x16_S16x8_S500000x8_1_0_0_1_n_n 16 rfl rfl k
  have el : Cert.ReferenceIdeal.dot_S500000x16_S16x8_S500000x8_1_0_0_1_n_n.lhsIdx i ((ValueIdx.contrEquiv1 Cert.ReferenceIdeal.dot_S500000x16_S16x8_S500000x8_1_0_0_1_n_n 16 rfl rfl).symm k) = li_hostB i k := funext fun a => Fin.ext (by
    match a with
    | ⟨0, _⟩ => exact lhs0_hostB _ _
    | ⟨1, _⟩ => exact (lhs1_hostB _ _).trans hk)
  have er : Cert.ReferenceIdeal.dot_S500000x16_S16x8_S500000x8_1_0_0_1_n_n.rhsIdx i ((ValueIdx.contrEquiv1 Cert.ReferenceIdeal.dot_S500000x16_S16x8_S500000x8_1_0_0_1_n_n 16 rfl rfl).symm k) = ri_hostB i k := funext fun a => Fin.ext (by
    match a with
    | ⟨0, _⟩ => exact (rhs0_hostB _ _).trans hk
    | ⟨1, _⟩ => exact rhs1_hostB _ _)
  rw [el, er]

/-! ### The launch body's product of a [10000, 16] by a [16, 8] array -/

theorem lhs0_bodyB (i : S10000x8.Idx) (q : Cert.KernelIdeal.dot_S10000x16_S16x8_S10000x8_1_0_0_1_n_n.contr.Idx) : (Cert.KernelIdeal.dot_S10000x16_S16x8_S10000x8_1_0_0_1_n_n.lhsIdx i q 0).val = (i 0).val := by
  unfold DotDims.lhsIdx
  rw [dif_neg (show ¬(0 : Fin S10000x16.rank) ∈ Cert.KernelIdeal.dot_S10000x16_S16x8_S10000x8_1_0_0_1_n_n.lhsBatch by decide), dif_pos (show (0 : Fin S10000x16.rank) ∈ Cert.KernelIdeal.dot_S10000x16_S16x8_S10000x8_1_0_0_1_n_n.lhsNonContracting by decide)]
  rfl
theorem lhs1_bodyB (i : S10000x8.Idx) (q : Cert.KernelIdeal.dot_S10000x16_S16x8_S10000x8_1_0_0_1_n_n.contr.Idx) : (Cert.KernelIdeal.dot_S10000x16_S16x8_S10000x8_1_0_0_1_n_n.lhsIdx i q 1).val = (q ⟨0, by decide⟩).val :=
  Cert.KernelIdeal.dot_S10000x16_S16x8_S10000x8_1_0_0_1_n_n.lhsIdx_val_of_single rfl i q
theorem rhs0_bodyB (i : S10000x8.Idx) (q : Cert.KernelIdeal.dot_S10000x16_S16x8_S10000x8_1_0_0_1_n_n.contr.Idx) : (Cert.KernelIdeal.dot_S10000x16_S16x8_S10000x8_1_0_0_1_n_n.rhsIdx i q 0).val = (q ⟨0, by decide⟩).val :=
  Cert.KernelIdeal.dot_S10000x16_S16x8_S10000x8_1_0_0_1_n_n.rhsIdx_val_of_single rfl i q
theorem rhs1_bodyB (i : S10000x8.Idx) (q : Cert.KernelIdeal.dot_S10000x16_S16x8_S10000x8_1_0_0_1_n_n.contr.Idx) : (Cert.KernelIdeal.dot_S10000x16_S16x8_S10000x8_1_0_0_1_n_n.rhsIdx i q 1).val = (i 1).val := by
  unfold DotDims.rhsIdx
  rw [dif_neg (show ¬(1 : Fin S16x8.rank) ∈ Cert.KernelIdeal.dot_S10000x16_S16x8_S10000x8_1_0_0_1_n_n.rhsBatch by decide), dif_pos (show (1 : Fin S16x8.rank) ∈ Cert.KernelIdeal.dot_S10000x16_S16x8_S10000x8_1_0_0_1_n_n.rhsNonContracting by decide)]
  rfl
/-- Row `i 0`, column `k` of the left operand. -/
abbrev li_bodyB (i : S10000x8.Idx) (k : Fin 16) : S10000x16.Idx := fun a => match a with
  | ⟨0, _⟩ => ⟨(i 0).val, (i 0).isLt⟩
  | ⟨1, _⟩ => ⟨k.val, k.isLt⟩
/-- Row `k`, column `i 1` of the right operand. -/
abbrev ri_bodyB (i : S10000x8.Idx) (k : Fin 16) : S16x8.Idx := fun a => match a with
  | ⟨0, _⟩ => ⟨k.val, k.isLt⟩
  | ⟨1, _⟩ => ⟨(i 1).val, (i 1).isLt⟩
/-- Entry `i` of the product is the sum over the 16 inner positions of row `i 0` of the left operand times column `i 1` of the right one. -/
theorem bodyB_apply (x : FVec Ideal S10000x16 .bf16) (w : FVec Ideal S16x8 .bf16) (i : S10000x8.Idx) :
    matmul (F := Ideal) Cert.KernelIdeal.dot_S10000x16_S16x8_S10000x8_1_0_0_1_n_n none x w (constant S10000x8 .f32 0x00000000#32) i = ∑ k : Fin 16, x (li_bodyB i k) * w (ri_bodyB i k) := by
  simp only [matmul]
  rw [Ideal.matmul_constant_zero_apply, ← Equiv.sum_comp (ValueIdx.contrEquiv1 Cert.KernelIdeal.dot_S10000x16_S16x8_S10000x8_1_0_0_1_n_n 16 rfl rfl).symm]
  refine Finset.sum_congr rfl fun k _ => ?_
  have hk := ValueIdx.contrEquiv1_symm_val Cert.KernelIdeal.dot_S10000x16_S16x8_S10000x8_1_0_0_1_n_n 16 rfl rfl k
  have el : Cert.KernelIdeal.dot_S10000x16_S16x8_S10000x8_1_0_0_1_n_n.lhsIdx i ((ValueIdx.contrEquiv1 Cert.KernelIdeal.dot_S10000x16_S16x8_S10000x8_1_0_0_1_n_n 16 rfl rfl).symm k) = li_bodyB i k := funext fun a => Fin.ext (by
    match a with
    | ⟨0, _⟩ => exact lhs0_bodyB _ _
    | ⟨1, _⟩ => exact (lhs1_bodyB _ _).trans hk)
  have er : Cert.KernelIdeal.dot_S10000x16_S16x8_S10000x8_1_0_0_1_n_n.rhsIdx i ((ValueIdx.contrEquiv1 Cert.KernelIdeal.dot_S10000x16_S16x8_S10000x8_1_0_0_1_n_n 16 rfl rfl).symm k) = ri_bodyB i k := funext fun a => Fin.ext (by
    match a with
    | ⟨0, _⟩ => exact (rhs0_bodyB _ _).trans hk
    | ⟨1, _⟩ => exact rhs1_bodyB _ _)
  rw [el, er]

/-! ### The host's product of a [500000, 8] by a [8, 1] array -/

theorem lhs0_hostC (i : S500000x1.Idx) (q : Cert.ReferenceIdeal.dot_S500000x8_S8x1_S500000x1_1_0_0_1_n_n.contr.Idx) : (Cert.ReferenceIdeal.dot_S500000x8_S8x1_S500000x1_1_0_0_1_n_n.lhsIdx i q 0).val = (i 0).val := by
  unfold DotDims.lhsIdx
  rw [dif_neg (show ¬(0 : Fin S500000x8.rank) ∈ Cert.ReferenceIdeal.dot_S500000x8_S8x1_S500000x1_1_0_0_1_n_n.lhsBatch by decide), dif_pos (show (0 : Fin S500000x8.rank) ∈ Cert.ReferenceIdeal.dot_S500000x8_S8x1_S500000x1_1_0_0_1_n_n.lhsNonContracting by decide)]
  rfl
theorem lhs1_hostC (i : S500000x1.Idx) (q : Cert.ReferenceIdeal.dot_S500000x8_S8x1_S500000x1_1_0_0_1_n_n.contr.Idx) : (Cert.ReferenceIdeal.dot_S500000x8_S8x1_S500000x1_1_0_0_1_n_n.lhsIdx i q 1).val = (q ⟨0, by decide⟩).val :=
  Cert.ReferenceIdeal.dot_S500000x8_S8x1_S500000x1_1_0_0_1_n_n.lhsIdx_val_of_single rfl i q
theorem rhs0_hostC (i : S500000x1.Idx) (q : Cert.ReferenceIdeal.dot_S500000x8_S8x1_S500000x1_1_0_0_1_n_n.contr.Idx) : (Cert.ReferenceIdeal.dot_S500000x8_S8x1_S500000x1_1_0_0_1_n_n.rhsIdx i q 0).val = (q ⟨0, by decide⟩).val :=
  Cert.ReferenceIdeal.dot_S500000x8_S8x1_S500000x1_1_0_0_1_n_n.rhsIdx_val_of_single rfl i q
theorem rhs1_hostC (i : S500000x1.Idx) (q : Cert.ReferenceIdeal.dot_S500000x8_S8x1_S500000x1_1_0_0_1_n_n.contr.Idx) : (Cert.ReferenceIdeal.dot_S500000x8_S8x1_S500000x1_1_0_0_1_n_n.rhsIdx i q 1).val = (i 1).val := by
  unfold DotDims.rhsIdx
  rw [dif_neg (show ¬(1 : Fin S8x1.rank) ∈ Cert.ReferenceIdeal.dot_S500000x8_S8x1_S500000x1_1_0_0_1_n_n.rhsBatch by decide), dif_pos (show (1 : Fin S8x1.rank) ∈ Cert.ReferenceIdeal.dot_S500000x8_S8x1_S500000x1_1_0_0_1_n_n.rhsNonContracting by decide)]
  rfl
/-- Row `i 0`, column `k` of the left operand. -/
abbrev li_hostC (i : S500000x1.Idx) (k : Fin 8) : S500000x8.Idx := fun a => match a with
  | ⟨0, _⟩ => ⟨(i 0).val, (i 0).isLt⟩
  | ⟨1, _⟩ => ⟨k.val, k.isLt⟩
/-- Row `k`, column `i 1` of the right operand. -/
abbrev ri_hostC (i : S500000x1.Idx) (k : Fin 8) : S8x1.Idx := fun a => match a with
  | ⟨0, _⟩ => ⟨k.val, k.isLt⟩
  | ⟨1, _⟩ => ⟨(i 1).val, (i 1).isLt⟩
/-- Entry `i` of the product is the sum over the 8 inner positions of row `i 0` of the left operand times column `i 1` of the right one. -/
theorem hostC_apply (x : FVec Ideal S500000x8 .f32) (w : FVec Ideal S8x1 .f32) (i : S500000x1.Idx) :
    Host.dotGeneral (F := Ideal) Cert.ReferenceIdeal.dot_S500000x8_S8x1_S500000x1_1_0_0_1_n_n none x w i = ∑ k : Fin 8, x (li_hostC i k) * w (ri_hostC i k) := by
  simp only [Host.dotGeneral]
  rw [Ideal.dotGeneral_apply, ← Equiv.sum_comp (ValueIdx.contrEquiv1 Cert.ReferenceIdeal.dot_S500000x8_S8x1_S500000x1_1_0_0_1_n_n 8 rfl rfl).symm]
  refine Finset.sum_congr rfl fun k _ => ?_
  have hk := ValueIdx.contrEquiv1_symm_val Cert.ReferenceIdeal.dot_S500000x8_S8x1_S500000x1_1_0_0_1_n_n 8 rfl rfl k
  have el : Cert.ReferenceIdeal.dot_S500000x8_S8x1_S500000x1_1_0_0_1_n_n.lhsIdx i ((ValueIdx.contrEquiv1 Cert.ReferenceIdeal.dot_S500000x8_S8x1_S500000x1_1_0_0_1_n_n 8 rfl rfl).symm k) = li_hostC i k := funext fun a => Fin.ext (by
    match a with
    | ⟨0, _⟩ => exact lhs0_hostC _ _
    | ⟨1, _⟩ => exact (lhs1_hostC _ _).trans hk)
  have er : Cert.ReferenceIdeal.dot_S500000x8_S8x1_S500000x1_1_0_0_1_n_n.rhsIdx i ((ValueIdx.contrEquiv1 Cert.ReferenceIdeal.dot_S500000x8_S8x1_S500000x1_1_0_0_1_n_n 8 rfl rfl).symm k) = ri_hostC i k := funext fun a => Fin.ext (by
    match a with
    | ⟨0, _⟩ => exact (rhs0_hostC _ _).trans hk
    | ⟨1, _⟩ => exact rhs1_hostC _ _)
  rw [el, er]

/-! ### The launch body's product of a [10000, 8] by a [8, 1] array -/

theorem lhs0_bodyC (i : S10000x1.Idx) (q : Cert.KernelIdeal.dot_S10000x8_S8x1_S10000x1_1_0_0_1_n_n.contr.Idx) : (Cert.KernelIdeal.dot_S10000x8_S8x1_S10000x1_1_0_0_1_n_n.lhsIdx i q 0).val = (i 0).val := by
  unfold DotDims.lhsIdx
  rw [dif_neg (show ¬(0 : Fin S10000x8.rank) ∈ Cert.KernelIdeal.dot_S10000x8_S8x1_S10000x1_1_0_0_1_n_n.lhsBatch by decide), dif_pos (show (0 : Fin S10000x8.rank) ∈ Cert.KernelIdeal.dot_S10000x8_S8x1_S10000x1_1_0_0_1_n_n.lhsNonContracting by decide)]
  rfl
theorem lhs1_bodyC (i : S10000x1.Idx) (q : Cert.KernelIdeal.dot_S10000x8_S8x1_S10000x1_1_0_0_1_n_n.contr.Idx) : (Cert.KernelIdeal.dot_S10000x8_S8x1_S10000x1_1_0_0_1_n_n.lhsIdx i q 1).val = (q ⟨0, by decide⟩).val :=
  Cert.KernelIdeal.dot_S10000x8_S8x1_S10000x1_1_0_0_1_n_n.lhsIdx_val_of_single rfl i q
theorem rhs0_bodyC (i : S10000x1.Idx) (q : Cert.KernelIdeal.dot_S10000x8_S8x1_S10000x1_1_0_0_1_n_n.contr.Idx) : (Cert.KernelIdeal.dot_S10000x8_S8x1_S10000x1_1_0_0_1_n_n.rhsIdx i q 0).val = (q ⟨0, by decide⟩).val :=
  Cert.KernelIdeal.dot_S10000x8_S8x1_S10000x1_1_0_0_1_n_n.rhsIdx_val_of_single rfl i q
theorem rhs1_bodyC (i : S10000x1.Idx) (q : Cert.KernelIdeal.dot_S10000x8_S8x1_S10000x1_1_0_0_1_n_n.contr.Idx) : (Cert.KernelIdeal.dot_S10000x8_S8x1_S10000x1_1_0_0_1_n_n.rhsIdx i q 1).val = (i 1).val := by
  unfold DotDims.rhsIdx
  rw [dif_neg (show ¬(1 : Fin S8x1.rank) ∈ Cert.KernelIdeal.dot_S10000x8_S8x1_S10000x1_1_0_0_1_n_n.rhsBatch by decide), dif_pos (show (1 : Fin S8x1.rank) ∈ Cert.KernelIdeal.dot_S10000x8_S8x1_S10000x1_1_0_0_1_n_n.rhsNonContracting by decide)]
  rfl
/-- Row `i 0`, column `k` of the left operand. -/
abbrev li_bodyC (i : S10000x1.Idx) (k : Fin 8) : S10000x8.Idx := fun a => match a with
  | ⟨0, _⟩ => ⟨(i 0).val, (i 0).isLt⟩
  | ⟨1, _⟩ => ⟨k.val, k.isLt⟩
/-- Row `k`, column `i 1` of the right operand. -/
abbrev ri_bodyC (i : S10000x1.Idx) (k : Fin 8) : S8x1.Idx := fun a => match a with
  | ⟨0, _⟩ => ⟨k.val, k.isLt⟩
  | ⟨1, _⟩ => ⟨(i 1).val, (i 1).isLt⟩
/-- Entry `i` of the product is the sum over the 8 inner positions of row `i 0` of the left operand times column `i 1` of the right one. -/
theorem bodyC_apply (x : FVec Ideal S10000x8 .bf16) (w : FVec Ideal S8x1 .bf16) (i : S10000x1.Idx) :
    matmul (F := Ideal) Cert.KernelIdeal.dot_S10000x8_S8x1_S10000x1_1_0_0_1_n_n none x w (constant S10000x1 .f32 0x00000000#32) i = ∑ k : Fin 8, x (li_bodyC i k) * w (ri_bodyC i k) := by
  simp only [matmul]
  rw [Ideal.matmul_constant_zero_apply, ← Equiv.sum_comp (ValueIdx.contrEquiv1 Cert.KernelIdeal.dot_S10000x8_S8x1_S10000x1_1_0_0_1_n_n 8 rfl rfl).symm]
  refine Finset.sum_congr rfl fun k _ => ?_
  have hk := ValueIdx.contrEquiv1_symm_val Cert.KernelIdeal.dot_S10000x8_S8x1_S10000x1_1_0_0_1_n_n 8 rfl rfl k
  have el : Cert.KernelIdeal.dot_S10000x8_S8x1_S10000x1_1_0_0_1_n_n.lhsIdx i ((ValueIdx.contrEquiv1 Cert.KernelIdeal.dot_S10000x8_S8x1_S10000x1_1_0_0_1_n_n 8 rfl rfl).symm k) = li_bodyC i k := funext fun a => Fin.ext (by
    match a with
    | ⟨0, _⟩ => exact lhs0_bodyC _ _
    | ⟨1, _⟩ => exact (lhs1_bodyC _ _).trans hk)
  have er : Cert.KernelIdeal.dot_S10000x8_S8x1_S10000x1_1_0_0_1_n_n.rhsIdx i ((ValueIdx.contrEquiv1 Cert.KernelIdeal.dot_S10000x8_S8x1_S10000x1_1_0_0_1_n_n 8 rfl rfl).symm k) = ri_bodyC i k := funext fun a => Fin.ext (by
    match a with
    | ⟨0, _⟩ => exact (rhs0_bodyC _ _).trans hk
    | ⟨1, _⟩ => exact rhs1_bodyC _ _)
  rw [el, er]

end Cert.Hand.DotSums

end
-- ==== Proof.LaunchA.lean ====
/-
  The first launch: fifty blocks of 10000 rows of the input features, each multiplied by the whole [12, 16] weight.
  Block t of the result array holds, at (r, c), the sum over the 12 inner positions of feature row 10000·t + r times weight
  column c; the blocks tile the 500000 rows, so the array the launch leaves is the host's one product of the whole
  feature array by the weight, entry by entry (no rounding on the extended reals, the narrowing of the operands being the identity).
-/
import proofs.«165820_j74174085202653_2_alg».proof.Proof.Gen.KernelIdeal.Frame
import proofs.«165820_j74174085202653_2_alg».proof.Proof.DotSums
import Idealize.ShloMosaic.Lib.Pipeline.Value

set_option maxRecDepth 16384

noncomputable section

namespace Cert.KernelIdeal.LaunchA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Hand.DotSums

variable (V : (c : Dev nD) → (b : Ref sig .tc) → Buf (Elt Ideal) ((c : Thread nD τ).loc b))

theorem hz : (![0, 0] : Fin 2 → Nat) = fun _ => 0 := funext fun a => by fin_cases a <;> rfl

/-- The whole product, in the host's spelling. -/
abbrev prod (X : FVec Ideal S500000x12 .f32) (W : FVec Ideal S12x16 .f32) : FVec Ideal S500000x16 .f32 :=
  Host.dotGeneral (F := Ideal) Cert.ReferenceIdeal.dot_S500000x12_S12x16_S500000x16_1_0_0_1_n_n none X W

/-- The body's stored value at (r, c): row r of the feature block times column c of the weight. -/
theorem pay_apply (x0 : Vec Ideal S10000x12 .f32) (x1 : Vec Ideal S12x16 .f32) (y : S10000x16.Idx) :
    k0_pay1 (F := Ideal) x0 x1 y = ∑ k : Fin 12, x0 (li_bodyA y k) * x1 (ri_bodyA y k) := by
  unfold k0_pay1
  exact bodyA_apply _ _ y

/-- Point t's blocks: rows 10000·t … of the features and of the result, the whole weight. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S10000x12) hz, View.ld_unit_zero (S := S12x16) hz]
  obtain ⟨e0, e1, e2, e3, e4, e5⟩ := idx t
  funext y
  show k0_pay1 (iblk0 V c 0 t) (iblk0 V c 1 t) y = prod (V c main_arg0) (V c main_arg2) (((cfg0.win 2).blk t).view.emb y)
  refine (pay_apply (iblk0 V c 0 t) (iblk0 V c 1 t) y).trans ?_
  refine Eq.trans ?_ (hostA_apply (V c main_arg0) (V c main_arg2) _).symm
  refine Finset.sum_congr rfl fun k _ => ?_
  have h0 : iblk0 V c 0 t (li_bodyA y k) = V c main_arg0 (li_hostA (((cfg0.win 2).blk t).view.emb y) k) := by
    show V c main_arg0 (((cfg0.win 0).blk t).view.emb (li_bodyA y k)) = _
    refine congrArg _ (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 12 + 1 * k.val = k.val; omega
  have h1 : iblk0 V c 1 t (ri_bodyA y k) = V c main_arg2 (ri_hostA (((cfg0.win 2).blk t).view.emb y) k) := by
    show V c main_arg2 (((cfg0.win 1).blk t).view.emb (ri_bodyA y k)) = _
    refine congrArg _ (funext fun a => Fin.ext ?_)
    match a with
    | ⟨0, _⟩ => show win0_1.index t (0 : Fin 2) * 12 + 1 * k.val = k.val; omega
    | ⟨1, _⟩ => show win0_1.index t (1 : Fin 2) * 16 + 1 * (y 1).val = win0_2.index t (1 : Fin 2) * 16 + 1 * (y 1).val; omega
  rw [h0, h1]

/-- An index of the result array is in point t's block iff each coordinate is in the block's range on its axis. -/
theorem mem_blk (t : Fin cfg0.N) (i : S500000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v27).slice (win0_2.rect t)).set ↔ _
  rw [View.set_slice_whole, Rect.mem_set_unit]
  exact Iff.rfl

/-- Row r lies in the block of point r / 10000. -/
theorem cover (i : S500000x16.Idx) : ∃ t : Fin cfg0.N, (cfg0.win 2).flush t = true ∧ i ∈ ((cfg0.win 2).blk t).view.set := by
  have hi0 : (i 0).val < 500000 := (i 0).isLt
  have hi1 : (i 1).val < 16 := (i 1).isLt
  have hN : grid0.N = 50 := N_0
  have hlt : (i 0).val / 10000 < grid0.N := by rw [hN]; omega
  refine ⟨⟨(i 0).val / 10000, hlt⟩, flush0_2 _, ?_⟩
  rw [mem_blk]
  obtain ⟨e0, e1, e2, e3, e4, e5⟩ := idx ⟨(i 0).val / 10000, hlt⟩
  have e4' : win0_2.index ⟨(i 0).val / 10000, hlt⟩ (0 : Fin 2) = (i 0).val / 10000 := e4
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4']; omega
  | ⟨1, _⟩ =>
    show win0_2.index ⟨(i 0).val / 10000, hlt⟩ (1 : Fin 2) * 16 ≤ (i 1).val ∧ (i 1).val < win0_2.index ⟨(i 0).val / 10000, hlt⟩ (1 : Fin 2) * 16 + 16
    rw [e5]; omega

/-- The array the launch leaves: the whole product of the arrays it found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Cert.KernelIdeal.LaunchA

end
-- ==== Proof.LaunchB.lean ====
/-
  The first bias-and-rectify launch: fifty blocks of 10000 rows of the aggregated [500000, 16] array, each with the
  [1, 16] bias row added to every row and the maximum with zero taken.  Entry (r, c) of the result depends on entry (r, c)
  of the input and entry c of the bias only, and the blocks tile the rows, so the array the launch leaves is the host's
  max(A + bias, 0) with the bias broadcast along the rows, entry by entry.
-/
import proofs.«165820_j74174085202653_2_alg».proof.Proof.Gen.KernelIdeal.Frame
import proofs.«165820_j74174085202653_2_alg».proof.Proof.Gen.ReferenceIdeal
import Idealize.ShloMosaic.PureOps.Ideal
import Idealize.ShloMosaic.Lib.Pipeline.Value

set_option maxRecDepth 16384

noncomputable section

namespace Cert.KernelIdeal.LaunchB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- One entry: the input plus the bias, against zero. -/
abbrev rect (a b : Ideal .f32) : Ideal .f32 := FloatOps.maximumf (FloatOps.addf a b) (FloatOps.ofBits .f32 0x00000000#32)

/-- The whole array, in the host's spelling: the bias row broadcast along the rows, added, and the maximum with the zero array. -/
abbrev whole (A : FVec Ideal S500000x16 .f32) (b : FVec Ideal S1x16 .f32) : FVec Ideal S500000x16 .f32 :=
  maximumf (addf A (broadcastInDim S500000x16 ![0, 1] Cert.ReferenceIdeal.Facts₀.bcast_S1x16_S500000x16_0_1 b))
    (broadcastInDim S500000x16 ![] Cert.ReferenceIdeal.Facts₀.bcast_S_S500000x16 (constant (F := Ideal) S_ .f32 0x00000000#32))

/-- Column c of the one bias row. -/
abbrev brow (c : Fin 16) : S1x16.Idx := fun a => match a with
  | ⟨0, _⟩ => ⟨0, Nat.zero_lt_one⟩
  | ⟨1, _⟩ => ⟨c.val, c.isLt⟩

/-- The body's stored value at (r, c). -/
theorem pay_apply (x0 : FVec Ideal S10000x16 .f32) (x1 : FVec Ideal S1x16 .f32) (y : S10000x16.Idx) :
    k1_pay1 (F := Ideal) x0 x1 y = rect (x0 y) (x1 (brow (y 1))) := by
  unfold k1_pay1
  simp only [shapeCast_self]
  show FloatOps.maximumf (FloatOps.addf (x0 y) (broadcastTo S10000x16 x1 broadcasts_S1x16_S10000x16 y)) _ = _
  rw [broadcastTo_apply x1 broadcasts_S1x16_S10000x16 y (brow (y 1)) (fun a => by
    match a with
    | ⟨0, _⟩ => rfl
    | ⟨1, _⟩ => rfl)]
  rfl

/-- The host's array at (r, c). -/
theorem whole_apply (A : FVec Ideal S500000x16 .f32) (b : FVec Ideal S1x16 .f32) (i : S500000x16.Idx) :
    whole A b i = rect (A i) (b (brow (i 1))) := by
  show FloatOps.maximumf (FloatOps.addf (A i) (broadcastInDim S500000x16 ![0, 1] Cert.ReferenceIdeal.Facts₀.bcast_S1x16_S500000x16_0_1 b i))
      (broadcastInDim S500000x16 ![] Cert.ReferenceIdeal.Facts₀.bcast_S_S500000x16 (constant (F := Ideal) S_ .f32 0x00000000#32) i) = _
  rw [broadcastInDim_apply ![0, 1] Cert.ReferenceIdeal.Facts₀.bcast_S1x16_S500000x16_0_1 b i (brow (i 1)) (fun a => by
    match a with
    | ⟨0, _⟩ => rfl
    | ⟨1, _⟩ => rfl),
    broadcastInDim_apply ![] Cert.ReferenceIdeal.Facts₀.bcast_S_S500000x16 (constant (F := Ideal) S_ .f32 0x00000000#32) i (fun a => a.elim0) (fun a => a.elim0)]
  rfl

/-- Point t's blocks: rows 10000·t … of the input and of the result, the whole bias row. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the host's array. -/
theorem flushed_eq (c : Dev nD) (t : Fin cfg1.N) :
    (dat1 V c).flushed 2 t = ((cfg1.win 2).blk t).view.read (Elt Ideal) (whole (V c main_v40) (V c main_v41)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨e0, e1, e2, e3, e4, e5⟩ := idx t
  funext y
  show k1_pay1 (iblk1 V c 0 t) (iblk1 V c 1 t) y = whole (V c main_v40) (V c main_v41) (((cfg1.win 2).blk t).view.emb y)
  refine (pay_apply (iblk1 V c 0 t) (iblk1 V c 1 t) y).trans ?_
  refine Eq.trans ?_ (whole_apply (V c main_v40) (V c main_v41) _).symm
  have h0 : iblk1 V c 0 t y = V c main_v40 (((cfg1.win 2).blk t).view.emb y) := by
    show V c main_v40 (((cfg1.win 0).blk t).view.emb y) = _
    refine congrArg _ (funext fun a => Fin.ext ?_)
    match a with
    | ⟨0, _⟩ => show win1_0.index t (0 : Fin 2) * 10000 + 1 * (y 0).val = win1_2.index t (0 : Fin 2) * 10000 + 1 * (y 0).val; omega
    | ⟨1, _⟩ => show win1_0.index t (1 : Fin 2) * 16 + 1 * (y 1).val = win1_2.index t (1 : Fin 2) * 16 + 1 * (y 1).val; omega
  have h1 : iblk1 V c 1 t (brow (y 1)) = V c main_v41 (brow ((((cfg1.win 2).blk t).view.emb y) 1)) := by
    show V c main_v41 (((cfg1.win 1).blk t).view.emb (brow (y 1))) = _
    refine congrArg _ (funext fun a => Fin.ext ?_)
    match a with
    | ⟨0, _⟩ => show win1_1.index t (0 : Fin 2) * 1 + 1 * 0 = 0; omega
    | ⟨1, _⟩ => show win1_1.index t (1 : Fin 2) * 16 + 1 * (y 1).val = win1_2.index t (1 : Fin 2) * 16 + 1 * (y 1).val; omega
  rw [h0, h1]

/-- An index of the result array is in point t's block iff each coordinate is in the block's range on its axis. -/
theorem mem_blk (t : Fin cfg1.N) (i : S500000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v42).slice (win1_2.rect t)).set ↔ _
  rw [View.set_slice_whole, Rect.mem_set_unit]
  exact Iff.rfl

/-- Row r lies in the block of point r / 10000. -/
theorem cover (i : S500000x16.Idx) : ∃ t : Fin cfg1.N, (cfg1.win 2).flush t = true ∧ i ∈ ((cfg1.win 2).blk t).view.set := by
  have hi0 : (i 0).val < 500000 := (i 0).isLt
  have hi1 : (i 1).val < 16 := (i 1).isLt
  have hN : grid1.N = 50 := N_1
  have hlt : (i 0).val / 10000 < grid1.N := by rw [hN]; omega
  refine ⟨⟨(i 0).val / 10000, hlt⟩, flush1_2 _, ?_⟩
  rw [mem_blk]
  obtain ⟨e0, e1, e2, e3, e4, e5⟩ := idx ⟨(i 0).val / 10000, hlt⟩
  have e4' : win1_2.index ⟨(i 0).val / 10000, hlt⟩ (0 : Fin 2) = (i 0).val / 10000 := e4
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4']; omega
  | ⟨1, _⟩ =>
    show win1_2.index ⟨(i 0).val / 10000, hlt⟩ (1 : Fin 2) * 16 ≤ (i 1).val ∧ (i 1).val < win1_2.index ⟨(i 0).val / 10000, hlt⟩ (1 : Fin 2) * 16 + 16
    rw [e5]; omega

/-- The array the launch leaves: the host's rectified sum of the arrays it found. -/
theorem final (c : Dev nD) : (dat1 V c).arrAt 2 cfg1.N = whole (V c main_v40) (V c main_v41) :=
  (dat1 V c).arrAt_eq_of_cover 2 (whole (V c main_v40) (V c main_v41)) (fun t _ => flushed_eq V c t) cover

end Cert.KernelIdeal.LaunchB

end
-- ==== Proof.LaunchC.lean ====
/-
  The third launch: fifty blocks of 10000 rows of the first layer's activations, each multiplied by the whole [16, 8] weight.
  Block t of the result array holds, at (r, c), the sum over the 16 inner positions of activation row 10000·t + r times weight
  column c; the blocks tile the 500000 rows, so the array the launch leaves is the host's one product of the whole
  activation array by the weight, entry by entry (no rounding on the extended reals, the narrowing of the operands being the identity).
-/
import proofs.«165820_j74174085202653_2_alg».proof.Proof.Gen.KernelIdeal.Frame
import proofs.«165820_j74174085202653_2_alg».proof.Proof.DotSums
import Idealize.ShloMosaic.Lib.Pipeline.Value

set_option maxRecDepth 16384

noncomputable section

namespace Cert.KernelIdeal.LaunchC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Hand.DotSums

variable (V : (c : Dev nD) → (b : Ref sig .tc) → Buf (Elt Ideal) ((c : Thread nD τ).loc b))

theorem hz : (![0, 0] : Fin 2 → Nat) = fun _ => 0 := funext fun a => by fin_cases a <;> rfl

/-- The whole product, in the host's spelling. -/
abbrev prod (X : FVec Ideal S500000x16 .f32) (W : FVec Ideal S16x8 .f32) : FVec Ideal S500000x8 .f32 :=
  Host.dotGeneral (F := Ideal) Cert.ReferenceIdeal.dot_S500000x16_S16x8_S500000x8_1_0_0_1_n_n none X W

/-- The body's stored value at (r, c): row r of the activation block times column c of the weight. -/
theorem pay_apply (x0 : Vec Ideal S10000x16 .f32) (x1 : Vec Ideal S16x8 .f32) (y : S10000x8.Idx) :
    k2_pay1 (F := Ideal) x0 x1 y = ∑ k : Fin 16, x0 (li_bodyB y k) * x1 (ri_bodyB y k) := by
  unfold k2_pay1
  simp only [shapeCast_self]
  exact bodyB_apply _ _ y

/-- Point t's blocks: rows 10000·t … of the activations and of the result, the whole weight. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed_eq (c : Dev nD) (t : Fin cfg2.N) :
    (dat2 V c).flushed 2 t = ((cfg2.win 2).blk t).view.read (Elt Ideal) (prod (V c main_v42) (V c main_arg4)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x8) hz]
  obtain ⟨e0, e1, e2, e3, e4, e5⟩ := idx t
  funext y
  show k2_pay1 (iblk2 V c 0 t) (iblk2 V c 1 t) y = prod (V c main_v42) (V c main_arg4) (((cfg2.win 2).blk t).view.emb y)
  refine (pay_apply (iblk2 V c 0 t) (iblk2 V c 1 t) y).trans ?_
  refine Eq.trans ?_ (hostB_apply (V c main_v42) (V c main_arg4) _).symm
  refine Finset.sum_congr rfl fun k _ => ?_
  have h0 : iblk2 V c 0 t (li_bodyB y k) = V c main_v42 (li_hostB (((cfg2.win 2).blk t).view.emb y) k) := by
    show V c main_v42 (((cfg2.win 0).blk t).view.emb (li_bodyB y k)) = _
    refine congrArg _ (funext fun a => Fin.ext ?_)
    match a with
    | ⟨0, _⟩ => show win2_0.index t (0 : Fin 2) * 10000 + 1 * (y 0).val = win2_2.index t (0 : Fin 2) * 10000 + 1 * (y 0).val; omega
    | ⟨1, _⟩ => show win2_0.index t (1 : Fin 2) * 16 +  1 * k.val = k.val; omega
  have h1 : iblk2 V c 1 t (ri_bodyB y k) = V c main_arg4 (ri_hostB (((cfg2.win 2).blk t).view.emb y) k) := by
    show V c main_arg4 (((cfg2.win 1).blk t).view.emb (ri_bodyB y k)) = _
    refine congrArg _ (funext fun a => Fin.ext ?_)
    match a with
    | ⟨0, _⟩ => show win2_1.index t (0 : Fin 2) * 16 +  1 * k.val = k.val; omega
    | ⟨1, _⟩ => show win2_1.index t (1 : Fin 2) * 8 + 1 * (y 1).val = win2_2.index t (1 : Fin 2) * 8 + 1 * (y 1).val; omega
  rw [h0, h1]

/-- An index of the result array is in point t's block iff each coordinate is in the block's range on its axis. -/
theorem mem_blk (t : Fin cfg2.N) (i : S500000x8.Idx) :
    i ∈ ((cfg2.win 2).blk t).view.set ↔ ∀ a : Fin 2, win2_2.index t a * S10000x8.size a ≤ (i a).val ∧ (i a).val < win2_2.index t a * S10000x8.size a + S10000x8.size a := by
  show i ∈ ((View.whole main_v43).slice (win2_2.rect t)).set ↔ _
  rw [View.set_slice_whole, Rect.mem_set_unit]
  exact Iff.rfl

/-- Row r lies in the block of point r / 10000. -/
theorem cover (i : S500000x8.Idx) : ∃ t : Fin cfg2.N, (cfg2.win 2).flush t = true ∧ i ∈ ((cfg2.win 2).blk t).view.set := by
  have hi0 : (i 0).val < 500000 := (i 0).isLt
  have hi1 : (i 1).val < 8 := (i 1).isLt
  have hN : grid2.N = 50 := N_2
  have hlt : (i 0).val / 10000 < grid2.N := by rw [hN]; omega
  refine ⟨⟨(i 0).val / 10000, hlt⟩, flush2_2 _, ?_⟩
  rw [mem_blk]
  obtain ⟨e0, e1, e2, e3, e4, e5⟩ := idx ⟨(i 0).val / 10000, hlt⟩
  have e4' : win2_2.index ⟨(i 0).val / 10000, hlt⟩ (0 : Fin 2) = (i 0).val / 10000 := e4
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4']; omega
  | ⟨1, _⟩ =>
    show win2_2.index ⟨(i 0).val / 10000, hlt⟩ (1 : Fin 2) * 8 ≤ (i 1).val ∧ (i 1).val < win2_2.index ⟨(i 0).val / 10000, hlt⟩ (1 : Fin 2) * 8 + 8
    rw [e5]; omega

/-- The array the launch leaves: the whole product of the arrays it found. -/
theorem final (c : Dev nD) : (dat2 V c).arrAt 2 cfg2.N = prod (V c main_v42) (V c main_arg4) :=
  (dat2 V c).arrAt_eq_of_cover 2 (prod (V c main_v42) (V c main_arg4)) (fun t _ => flushed_eq V c t) cover

end Cert.KernelIdeal.LaunchC

end
-- ==== Proof.LaunchD.lean ====
/-
  The second bias-and-rectify launch: fifty blocks of 10000 rows of the aggregated [500000, 8] array, each with the
  [1, 8] bias row added to every row and the maximum with zero taken.  Entry (r, c) of the result depends on entry (r, c)
  of the input and entry c of the bias only, and the blocks tile the rows, so the array the launch leaves is the host's
  max(A + bias, 0) with the bias broadcast along the rows, entry by entry.
-/
import proofs.«165820_j74174085202653_2_alg».proof.Proof.Gen.KernelIdeal.Frame
import proofs.«165820_j74174085202653_2_alg».proof.Proof.Gen.ReferenceIdeal
import Idealize.ShloMosaic.PureOps.Ideal
import Idealize.ShloMosaic.Lib.Pipeline.Value

set_option maxRecDepth 16384

noncomputable section

namespace Cert.KernelIdeal.LaunchD

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

theorem hz : (![0, 0] : Fin 2 → Nat) = fun _ => 0 := funext fun a => by fin_cases a <;> rfl

/-- One entry: the input plus the bias, against zero. -/
abbrev rect (a b : Ideal .f32) : Ideal .f32 := FloatOps.maximumf (FloatOps.addf a b) (FloatOps.ofBits .f32 0x00000000#32)

/-- The whole array, in the host's spelling: the bias row broadcast along the rows, added, and the maximum with the zero array. -/
abbrev whole (A : FVec Ideal S500000x8 .f32) (b : FVec Ideal S1x8 .f32) : FVec Ideal S500000x8 .f32 :=
  maximumf (addf A (broadcastInDim S500000x8 ![0, 1] Cert.ReferenceIdeal.Facts₀.bcast_S1x8_S500000x8_0_1 b))
    (broadcastInDim S500000x8 ![] Cert.ReferenceIdeal.Facts₀.bcast_S_S500000x8 (constant (F := Ideal) S_ .f32 0x00000000#32))

/-- Column c of the one bias row. -/
abbrev brow (c : Fin 8) : S1x8.Idx := fun a => match a with
  | ⟨0, _⟩ => ⟨0, Nat.zero_lt_one⟩
  | ⟨1, _⟩ => ⟨c.val, c.isLt⟩

/-- The body's stored value at (r, c). -/
theorem pay_apply (x0 : FVec Ideal S10000x8 .f32) (x1 : FVec Ideal S1x8 .f32) (y : S10000x8.Idx) :
    k3_pay1 (F := Ideal) x0 x1 y = rect (x0 y) (x1 (brow (y 1))) := by
  unfold k3_pay1
  simp only [shapeCast_self]
  show FloatOps.maximumf (FloatOps.addf (x0 y) (broadcastTo S10000x8 x1 broadcasts_S1x8_S10000x8 y)) _ = _
  rw [broadcastTo_apply x1 broadcasts_S1x8_S10000x8 y (brow (y 1)) (fun a => by
    match a with
    | ⟨0, _⟩ => rfl
    | ⟨1, _⟩ => rfl)]
  rfl

/-- The host's array at (r, c). -/
theorem whole_apply (A : FVec Ideal S500000x8 .f32) (b : FVec Ideal S1x8 .f32) (i : S500000x8.Idx) :
    whole A b i = rect (A i) (b (brow (i 1))) := by
  show FloatOps.maximumf (FloatOps.addf (A i) (broadcastInDim S500000x8 ![0, 1] Cert.ReferenceIdeal.Facts₀.bcast_S1x8_S500000x8_0_1 b i))
      (broadcastInDim S500000x8 ![] Cert.ReferenceIdeal.Facts₀.bcast_S_S500000x8 (constant (F := Ideal) S_ .f32 0x00000000#32) i) = _
  rw [broadcastInDim_apply ![0, 1] Cert.ReferenceIdeal.Facts₀.bcast_S1x8_S500000x8_0_1 b i (brow (i 1)) (fun a => by
    match a with
    | ⟨0, _⟩ => rfl
    | ⟨1, _⟩ => rfl),
    broadcastInDim_apply ![] Cert.ReferenceIdeal.Facts₀.bcast_S_S500000x8 (constant (F := Ideal) S_ .f32 0x00000000#32) i (fun a => a.elim0) (fun a => a.elim0)]
  rfl

/-- Point t's blocks: rows 10000·t … of the input and of the result, the whole bias row. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the host's array. -/
theorem flushed_eq (c : Dev nD) (t : Fin cfg3.N) :
    (dat3 V c).flushed 2 t = ((cfg3.win 2).blk t).view.read (Elt Ideal) (whole (V c main_v56) (V c main_v57)) := by
  show (cfg3.win 2).cut (grid3.coords t) ((dat3 V c).after 2 t) = _
  rw [after3_2]
  unfold out3_2
  rw [View.canon_unit_zero hz]
  simp only [View.ld_unit_zero (S := S10000x8) hz, View.ld_unit_zero (S := S1x8) hz]
  obtain ⟨e0, e1, e2, e3, e4, e5⟩ := idx t
  funext y
  show k3_pay1 (iblk3 V c 0 t) (iblk3 V c 1 t) y = whole (V c main_v56) (V c main_v57) (((cfg3.win 2).blk t).view.emb y)
  refine (pay_apply (iblk3 V c 0 t) (iblk3 V c 1 t) y).trans ?_
  refine Eq.trans ?_ (whole_apply (V c main_v56) (V c main_v57) _).symm
  have h0 : iblk3 V c 0 t y = V c main_v56 (((cfg3.win 2).blk t).view.emb y) := by
    show V c main_v56 (((cfg3.win 0).blk t).view.emb y) = _
    refine congrArg _ (funext fun a => Fin.ext ?_)
    match a with
    | ⟨0, _⟩ => show win3_0.index t (0 : Fin 2) * 10000 + 1 * (y 0).val = win3_2.index t (0 : Fin 2) * 10000 + 1 * (y 0).val; omega
    | ⟨1, _⟩ => show win3_0.index t (1 : Fin 2) * 8 + 1 * (y 1).val = win3_2.index t (1 : Fin 2) * 8 + 1 * (y 1).val; omega
  have h1 : iblk3 V c 1 t (brow (y 1)) = V c main_v57 (brow ((((cfg3.win 2).blk t).view.emb y) 1)) := by
    show V c main_v57 (((cfg3.win 1).blk t).view.emb (brow (y 1))) = _
    refine congrArg _ (funext fun a => Fin.ext ?_)
    match a with
    | ⟨0, _⟩ => show win3_1.index t (0 : Fin 2) * 1 + 1 * 0 = 0; omega
    | ⟨1, _⟩ => show win3_1.index t (1 : Fin 2) * 8 + 1 * (y 1).val = win3_2.index t (1 : Fin 2) * 8 + 1 * (y 1).val; omega
  rw [h0, h1]

/-- An index of the result array is in point t's block iff each coordinate is in the block's range on its axis. -/
theorem mem_blk (t : Fin cfg3.N) (i : S500000x8.Idx) :
    i ∈ ((cfg3.win 2).blk t).view.set ↔ ∀ a : Fin 2, win3_2.index t a * S10000x8.size a ≤ (i a).val ∧ (i a).val < win3_2.index t a * S10000x8.size a + S10000x8.size a := by
  show i ∈ ((View.whole main_v58).slice (win3_2.rect t)).set ↔ _
  rw [View.set_slice_whole, Rect.mem_set_unit]
  exact Iff.rfl

/-- Row r lies in the block of point r / 10000. -/
theorem cover (i : S500000x8.Idx) : ∃ t : Fin cfg3.N, (cfg3.win 2).flush t = true ∧ i ∈ ((cfg3.win 2).blk t).view.set := by
  have hi0 : (i 0).val < 500000 := (i 0).isLt
  have hi1 : (i 1).val < 8 := (i 1).isLt
  have hN : grid3.N = 50 := N_3
  have hlt : (i 0).val / 10000 < grid3.N := by rw [hN]; omega
  refine ⟨⟨(i 0).val / 10000, hlt⟩, flush3_2 _, ?_⟩
  rw [mem_blk]
  obtain ⟨e0, e1, e2, e3, e4, e5⟩ := idx ⟨(i 0).val / 10000, hlt⟩
  have e4' : win3_2.index ⟨(i 0).val / 10000, hlt⟩ (0 : Fin 2) = (i 0).val / 10000 := e4
  intro a
  match a with
  | ⟨0, _⟩ =>
    show win3_2.index ⟨(i 0).val / 10000, hlt⟩ (0 : Fin 2) * 10000 ≤ (i 0).val ∧ (i 0).val < win3_2.index ⟨(i 0).val / 10000, hlt⟩ (0 : Fin 2) * 10000 + 10000
    rw [e4']; omega
  | ⟨1, _⟩ =>
    show win3_2.index ⟨(i 0).val / 10000, hlt⟩ (1 : Fin 2) * 8 ≤ (i 1).val ∧ (i 1).val < win3_2.index ⟨(i 0).val / 10000, hlt⟩ (1 : Fin 2) * 8 + 8
    rw [e5]; omega

/-- The array the launch leaves: the host's rectified sum of the arrays it found. -/
theorem final (c : Dev nD) : (dat3 V c).arrAt 2 cfg3.N = whole (V c main_v56) (V c main_v57) :=
  (dat3 V c).arrAt_eq_of_cover 2 (whole (V c main_v56) (V c main_v57)) (fun t _ => flushed_eq V c t) cover

end Cert.KernelIdeal.LaunchD

end
-- ==== Proof.LaunchE.lean ====
/-
  The last launch: fifty blocks of 10000 rows of the second layer's activations, each multiplied by the [8, 1] output
  weight, the one bias entry added, and the logistic function applied.  Entry (r, 0) of the result is
  logistic(sum over the 8 inner positions of activation row r times the weight column, plus the bias); the blocks tile the
  rows.  The host spells the logistic function 1 / (1 + exp(-z)); on the extended reals the two spellings are one function
  (the constant 0x3F800000 is the real one), so the array the launch leaves is the host's, entry by entry.
-/
import proofs.«165820_j74174085202653_2_alg».proof.Proof.Gen.KernelIdeal.Frame
import proofs.«165820_j74174085202653_2_alg».proof.Proof.DotSums
import Idealize.ShloMosaic.Lib.Pipeline.Value
import Idealize.ShloMosaic.Lib.IdealHost

set_option maxRecDepth 16384

noncomputable section

namespace Cert.KernelIdeal.LaunchE

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Hand.DotSums

variable (V : (c : Dev nD) → (b : Ref sig .tc) → Buf (Elt Ideal) ((c : Thread nD τ).loc b))

theorem hz : (![0, 0] : Fin 2 → Nat) = fun _ => 0 := funext fun a => by fin_cases a <;> rfl

/-- One entry: the logistic function of the row's product with the weight plus the bias. -/
abbrev sigm (s b : Ideal .f32) : Ideal .f32 := FloatOps.logistic (FloatOps.addf s b)

/-- The whole array, in the host's spelling: 1 / (1 + exp(-(H·W + bias))), the bias entry and the ones broadcast. -/
abbrev whole (H : FVec Ideal S500000x8 .f32) (W : FVec Ideal S8x1 .f32) (b : FVec Ideal S1x1 .f32) : FVec Ideal S500000x1 .f32 :=
  Host.divf (broadcastInDim S500000x1 ![] Cert.ReferenceIdeal.Facts₀.bcast_S_S500000x1 (constant (F := Ideal) S_ .f32 0x3F800000#32))
    (addf (broadcastInDim S500000x1 ![] Cert.ReferenceIdeal.Facts₀.bcast_S_S500000x1 (constant (F := Ideal) S_ .f32 0x3F800000#32))
      (Host.exp (Host.negf (addf (Host.dotGeneral (F := Ideal) Cert.ReferenceIdeal.dot_S500000x8_S8x1_S500000x1_1_0_0_1_n_n none H W)
        (broadcastInDim S500000x1 ![0, 1] Cert.ReferenceIdeal.Facts₀.bcast_S1x1_S500000x1_0_1 b)))))

/-- The one entry of the bias. -/
abbrev b00 : S1x1.Idx := fun a => match a with
  | ⟨0, _⟩ => ⟨0, Nat.zero_lt_one⟩
  | ⟨1, _⟩ => ⟨0, Nat.zero_lt_one⟩

/-- The body's stored value at (r, 0). -/
theorem pay_apply (x0 : FVec Ideal S10000x8 .f32) (x1 : FVec Ideal S8x1 .f32) (x2 : FVec Ideal S1x1 .f32) (y : S10000x1.Idx) :
    k4_pay1 (F := Ideal) x0 x1 x2 y = sigm (∑ k : Fin 8, x0 (li_bodyC y k) * x1 (ri_bodyC y k)) (x2 b00) := by
  unfold k4_pay1
  simp only [shapeCast_self]
  show FloatOps.logistic (FloatOps.addf (matmul (F := Ideal) dot_S10000x8_S8x1_S10000x1_1_0_0_1_n_n none (truncf .bf16 x0 bitsLt_bf16_f32) (truncf .bf16 x1 bitsLt_bf16_f32) (constant S10000x1 .f32 0x00000000#32) y)
      (broadcastTo S10000x1 x2 broadcasts_S1x1_S10000x1 y)) = _
  rw [bodyC_apply, broadcastTo_apply x2 broadcasts_S1x1_S10000x1 y b00 (fun a => by
    match a with
    | ⟨0, _⟩ => rfl
    | ⟨1, _⟩ => rfl)]
  rfl

/-- The host's array at (r, 0). -/
theorem whole_apply (H : FVec Ideal S500000x8 .f32) (W : FVec Ideal S8x1 .f32) (b : FVec Ideal S1x1 .f32) (i : S500000x1.Idx) :
    whole H W b i = sigm (∑ k : Fin 8, H (li_hostC i k) * W (ri_hostC i k)) (b b00) := by
  show FloatOps.hostDivf (broadcastInDim S500000x1 ![] Cert.ReferenceIdeal.Facts₀.bcast_S_S500000x1 (constant (F := Ideal) S_ .f32 0x3F800000#32) i)
      (FloatOps.addf (broadcastInDim S500000x1 ![] Cert.ReferenceIdeal.Facts₀.bcast_S_S500000x1 (constant (F := Ideal) S_ .f32 0x3F800000#32) i)
        (FloatOps.hostUnary .exp (FloatOps.hostNegf (FloatOps.addf
          (Host.dotGeneral (F := Ideal) Cert.ReferenceIdeal.dot_S500000x8_S8x1_S500000x1_1_0_0_1_n_n none H W i)
          (broadcastInDim S500000x1 ![0, 1] Cert.ReferenceIdeal.Facts₀.bcast_S1x1_S500000x1_0_1 b i))))) = _
  rw [broadcastInDim_apply ![] Cert.ReferenceIdeal.Facts₀.bcast_S_S500000x1 (constant (F := Ideal) S_ .f32 0x3F800000#32) i (fun a => a.elim0) (fun a => a.elim0),
    broadcastInDim_apply ![0, 1] Cert.ReferenceIdeal.Facts₀.bcast_S1x1_S500000x1_0_1 b i b00 (fun a => by
      match a with
      | ⟨0, _⟩ => rfl
      | ⟨1, _⟩ => rfl),
    hostC_apply]
  show FloatOps.hostDivf (Ideal.ofBits .f32 0x3F800000#32) (FloatOps.addf (Ideal.ofBits .f32 0x3F800000#32) _) = _
  rw [Ideal.ofBits_one_f32]
  rfl

/-- Point t's blocks: rows 10000·t … of the activations and of the result, the whole weight and bias. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the host's array. -/
theorem flushed_eq (c : Dev nD) (t : Fin cfg4.N) :
    (dat4 V c).flushed 3 t = ((cfg4.win 3).blk t).view.read (Elt Ideal) (whole (V c main_v58) (V c main_arg6) (V c main_v59)) := by
  show (cfg4.win 3).cut (grid4.coords t) ((dat4 V c).after 3 t) = _
  rw [after4_3]
  unfold out4_3
  rw [View.canon_unit_zero hz]
  simp only [View.ld_unit_zero (S := S10000x8) hz, View.ld_unit_zero (S := S8x1) hz, View.ld_unit_zero (S := S1x1) hz]
  obtain ⟨e0, e1, e2, e3, e4, e5, e6, e7⟩ := idx t
  funext y
  show k4_pay1 (iblk4 V c 0 t) (iblk4 V c 1 t) (iblk4 V c 2 t) y = whole (V c main_v58) (V c main_arg6) (V c main_v59) (((cfg4.win 3).blk t).view.emb y)
  refine (pay_apply (iblk4 V c 0 t) (iblk4 V c 1 t) (iblk4 V c 2 t) y).trans ?_
  refine Eq.trans ?_ (whole_apply (V c main_v58) (V c main_arg6) (V c main_v59) _).symm
  have h2 : iblk4 V c 2 t b00 = V c main_v59 b00 := by
    show V c main_v59 (((cfg4.win 2).blk t).view.emb b00) = _
    refine congrArg _ (funext fun a => Fin.ext ?_)
    match a with
    | ⟨0, _⟩ => show win4_2.index t (0 : Fin 2) * 1 + 1 * 0 = 0; omega
    | ⟨1, _⟩ => show win4_2.index t (1 : Fin 2) * 1 + 1 * 0 = 0; omega
  refine congrArg₂ sigm (Finset.sum_congr rfl fun k _ => ?_) h2
  have h0 : iblk4 V c 0 t (li_bodyC y k) = V c main_v58 (li_hostC (((cfg4.win 3).blk t).view.emb y) k) := by
    show V c main_v58 (((cfg4.win 0).blk t).view.emb (li_bodyC y k)) = _
    refine congrArg _ (funext fun a => Fin.ext ?_)
    match a with
    | ⟨0, _⟩ => show win4_0.index t (0 : Fin 2) * 10000 + 1 * (y 0).val = win4_3.index t (0 : Fin 2) * 10000 + 1 * (y 0).val; omega
    | ⟨1, _⟩ => show win4_0.index t (1 : Fin 2) * 8 + 1 * k.val = k.val; omega
  have h1 : iblk4 V c 1 t (ri_bodyC y k) = V c main_arg6 (ri_hostC (((cfg4.win 3).blk t).view.emb y) k) := by
    show V c main_arg6 (((cfg4.win 1).blk t).view.emb (ri_bodyC y k)) = _
    refine congrArg _ (funext fun a => Fin.ext ?_)
    match a with
    | ⟨0, _⟩ => show win4_1.index t (0 : Fin 2) * 8 + 1 * k.val = k.val; omega
    | ⟨1, _⟩ => show win4_1.index t (1 : Fin 2) * 1 + 1 * (y 1).val = win4_3.index t (1 : Fin 2) * 1 + 1 * (y 1).val; omega
  rw [h0, h1]

/-- An index of the result array is in point t's block iff each coordinate is in the block's range on its axis. -/
theorem mem_blk (t : Fin cfg4.N) (i : S500000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v60).slice (win4_3.rect t)).set ↔ _
  rw [View.set_slice_whole, Rect.mem_set_unit]
  exact Iff.rfl

/-- Row r lies in the block of point r / 10000. -/
theorem cover (i : S500000x1.Idx) : ∃ t : Fin cfg4.N, (cfg4.win 3).flush t = true ∧ i ∈ ((cfg4.win 3).blk t).view.set := by
  have hi0 : (i 0).val < 500000 := (i 0).isLt
  have hi1 : (i 1).val < 1 := (i 1).isLt
  have hN : grid4.N = 50 := N_4
  have hlt : (i 0).val / 10000 < grid4.N := by rw [hN]; omega
  refine ⟨⟨(i 0).val / 10000, hlt⟩, flush4_3 _, ?_⟩
  rw [mem_blk]
  obtain ⟨e0, e1, e2, e3, e4, e5, e6, e7⟩ := idx ⟨(i 0).val / 10000, hlt⟩
  have e6' : win4_3.index ⟨(i 0).val / 10000, hlt⟩ (0 : Fin 2) = (i 0).val / 10000 := e6
  intro a
  match a with
  | ⟨0, _⟩ =>
    show win4_3.index ⟨(i 0).val / 10000, hlt⟩ (0 : Fin 2) * 10000 ≤ (i 0).val ∧ (i 0).val < win4_3.index ⟨(i 0).val / 10000, hlt⟩ (0 : Fin 2) * 10000 + 10000
    rw [e6']; omega
  | ⟨1, _⟩ =>
    show win4_3.index ⟨(i 0).val / 10000, hlt⟩ (1 : Fin 2) * 1 ≤ (i 1).val ∧ (i 1).val < win4_3.index ⟨(i 0).val / 10000, hlt⟩ (1 : Fin 2) * 1 + 1
    rw [e7]; omega

/-- The array the launch leaves: the host's logistic layer of the arrays it found. -/
theorem final (c : Dev nD) : (dat4 V c).arrAt 3 cfg4.N = whole (V c main_v58) (V c main_arg6) (V c main_v59) :=
  (dat4 V c).arrAt_eq_of_cover 3 (whole (V c main_v58) (V c main_arg6) (V c main_v59)) (fun t _ => flushed_eq V c t) cover

end Cert.KernelIdeal.LaunchE

end
-- ==== Proof.Chain.lean ====
/-
  The memory of the five-launch program followed from launch to result, each array named as the stage of the host
  reference it equals.  Write A for the normalised adjacency with self loops (entry (d, s) sums
  dinv[s]·dinv[d] over the edges s → d, dinv the inverse square root of the in-degree count).  Then

    launch 1 leaves   X·W1                                   (the reference's first product),
    the host gathers its rows by source, scales by the edge weights and adds them up by target:  A·(X·W1),
    launch 2 leaves   H1 = max(A·(X·W1) + b1, 0),
    launch 3 leaves   H1·W2,
    the host aggregates again:                               A·(H1·W2),
    launch 4 leaves   H2 = max(A·(H1·W2) + b2, 0),
    launch 5 leaves   logistic(H2·fc_w + fc_b).

  A launch's whole-array value is the host's operation of the same name (the five launch modules); the host stretches in
  between are the reference's own operations applied to the arrays found, in the reference's order; the edge lists and
  the edge weights are computed once here and twice in the reference, by the same operations.  So each array is,
  operation for operation, the reference's stage — the aggregation itself is never opened.  The one place where the two
  programs spell a step differently is a bias: a row with a unit axis put in front by a reshape here, by a broadcast there
  (`row_cast_eq`).
-/
import proofs.«165820_j74174085202653_2_alg».proof.Proof.Gen.KernelIdeal.Frame
import proofs.«165820_j74174085202653_2_alg».proof.Proof.Gen.ReferenceIdeal.Read
import proofs.«165820_j74174085202653_2_alg».proof.Proof.Kept
import proofs.«165820_j74174085202653_2_alg».proof.Proof.LaunchA
import proofs.«165820_j74174085202653_2_alg».proof.Proof.LaunchB
import proofs.«165820_j74174085202653_2_alg».proof.Proof.LaunchC
import proofs.«165820_j74174085202653_2_alg».proof.Proof.LaunchD
import proofs.«165820_j74174085202653_2_alg».proof.Proof.LaunchE
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx

/-- A vector of length a read as a [1, a] array: the reshape that puts a unit axis in front and the broadcast along a new
    leading unit axis are the same array (entry (0, i) is entry i). -/
theorem row_cast_eq {α : Type} {a : ℕ} (x : (⟨1, ![a]⟩ : Shape).Idx → α) (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) fun ax => ?_).symm
  match ax with
  | ⟨0, _⟩ =>
    show i.val = if a = 1 then 0 else i.val
    split
    · have := i.isLt; omega
    · rfl

variable (m : (ℓ : Loc nD τ sig) → Buf (Elt Ideal) ℓ) (ρ : Dev nD → PrngReg) (c : Dev nD)

/-- After the first launch: the features times the first weight. -/
theorem xw1 : W2 m ρ c (Proc.devRef .tc main_v27) = Cert.ReferenceIdeal.Read.val_main_v7 (F := Ideal) (m ((c : Thread nD τ).loc main_arg0)) (m ((c : Thread nD τ).loc main_arg2)) := by
  refine (W2_arr m ρ c 2).trans ((LaunchA.final (V1 m ρ) c).trans ?_)
  show LaunchA.prod (W1 m ρ c (Proc.devRef .tc main_arg0)) (W1 m ρ c (Proc.devRef .tc main_arg2)) = _
  rw [Kept.at1_arg0 m ρ c, Kept.at1_arg2 m ρ c]
  rfl

/-- The first aggregation: rows gathered by source, scaled by the edge weights, added up by target. -/
theorem agg1 : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [Kept.at2_v5 m ρ c, Kept.at2_v6 m ρ c, Kept.at2_v26 m ρ c, xw1 m ρ c]
  rfl

/-- The first bias as a [1, 16] row. -/
theorem bias1 : W3 m ρ c (Proc.devRef .tc main_v41) = Cert.ReferenceIdeal.Read.val_main_v41 (F := Ideal) (m ((c : Thread nD τ).loc main_arg3)) := by
  show StableHlo.after hostOps1 (W2 m ρ c) (Proc.devRef .tc main_v41) = _
  after_results_simp
  rw [Kept.at2_arg3 m ρ c]
  exact row_cast_eq _ _ _

/-- After the second launch: the first layer's activations. -/
theorem act1 : W4 m ρ c (Proc.devRef .tc main_v42) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((LaunchB.final (V3 m ρ) c).trans ?_)
  show LaunchB.whole (W3 m ρ c (Proc.devRef .tc main_v40)) (W3 m ρ c (Proc.devRef .tc main_v41)) = _
  rw [agg1 m ρ c, bias1 m ρ c]
  rfl

/-- After the third launch: the activations times the second weight. -/
theorem xw2 : W5 m ρ c (Proc.devRef .tc main_v43) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((LaunchC.final (V4 m ρ) c).trans ?_)
  show LaunchC.prod (W4 m ρ c (Proc.devRef .tc main_v42)) (W4 m ρ c (Proc.devRef .tc main_arg4)) = _
  rw [act1 m ρ c, Kept.at4_arg4 m ρ c]
  rfl

/-- The second aggregation, over the same edges and edge weights. -/
theorem agg2 : W6 m ρ c (Proc.devRef .tc main_v56) = Cert.ReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [Kept.at5_v5 m ρ c, Kept.at5_v6 m ρ c, Kept.at5_v26 m ρ c, xw2 m ρ c]
  rfl

/-- The second bias as a [1, 8] row. -/
theorem bias2 : W6 m ρ c (Proc.devRef .tc main_v57) = Cert.ReferenceIdeal.Read.val_main_v86 (F := Ideal) (m ((c : Thread nD τ).loc main_arg5)) := by
  show StableHlo.after hostOps3 (W5 m ρ c) (Proc.devRef .tc main_v57) = _
  after_results_simp
  rw [Kept.at5_arg5 m ρ c]
  exact row_cast_eq _ _ _

/-- After the fourth launch: the second layer's activations. -/
theorem act2 : W7 m ρ c (Proc.devRef .tc main_v58) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((LaunchD.final (V6 m ρ) c).trans ?_)
  show LaunchD.whole (W6 m ρ c (Proc.devRef .tc main_v56)) (W6 m ρ c (Proc.devRef .tc main_v57)) = _
  rw [agg2 m ρ c, bias2 m ρ c]
  rfl

/-- The last host stretch only reshapes the output bias: the activations stay. -/
theorem act2' : W8 m ρ c (Proc.devRef .tc main_v58) = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W7 m ρ c) (Proc.devRef .tc main_v58) = _
  after_results_simp
  exact act2 m ρ c

/-- The output bias as a [1, 1] array. -/
theorem bias3 : W8 m ρ c (Proc.devRef .tc main_v59) = Cert.ReferenceIdeal.Read.val_main_v91 (F := Ideal) (m ((c : Thread nD τ).loc main_arg7)) := by
  show StableHlo.after hostOps4 (W7 m ρ c) (Proc.devRef .tc main_v59) = _
  after_results_simp
  rw [Kept.at7_arg7 m ρ c]
  exact row_cast_eq _ _ _

/-- After the fifth launch: the result array is the reference's result, as one function of the eight arguments. -/
theorem result_eq : W9 m ρ c (Proc.devRef .tc main_v60) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W9_arr m ρ c 3).trans ((LaunchE.final (V8 m ρ) c).trans ?_)
  show LaunchE.whole (W8 m ρ c (Proc.devRef .tc main_v58)) (W8 m ρ c (Proc.devRef .tc main_arg6)) (W8 m ρ c (Proc.devRef .tc main_v59)) = _
  rw [act2' m ρ c, Kept.at8_arg6 m ρ c, bias3 m ρ c]
  rfl

end Cert.KernelIdeal.Chain

end
-- ==== Proof.lean ====
/-
  A two-layer graph convolution with a logistic read-out, computed two ways, is ONE function of its eight arguments over
  the extended reals.

  The kernel program keeps the graph work on the host — self loops appended to the edge list, in-degree counts, their
  inverse square roots, the per-edge weight dinv[source]·dinv[target], the gather of rows by source and the sum by target —
  and runs the dense steps as five tiled launches over blocks of 10000 rows: X·W1, max(· + b1, 0), ·W2, max(· + b2, 0),
  logistic(·fc_w + fc_b).  The reference does every step on the host, and recomputes the edge lists and edge weights for the
  second layer.

  Nothing here needs an algebraic law beyond reading a matrix product at an entry: a launch's blocks tile the rows and each
  block's entries depend on the same rows of the input, so each launch leaves exactly the array the host's operation of
  the same name computes (a product into a zero accumulator is the host's product; narrowing the operands to 16 bits is the
  identity on the extended reals; the launch's logistic function is the host's 1 / (1 + exp(-z))).  The host steps between
  the launches are the reference's own operations in the reference's order, so the aggregation is carried along unopened,
  and the recomputed edge data are the same terms.  Finiteness of the inputs is never used.

  The three frames: the two kernel programs' from their launch-by-launch runs, the reference's from its run with the result
  dropped.  The idealisation rewrote nothing, so there is nothing to preserve.
-/
import proofs.«165820_j74174085202653_2_alg».proof.Defs
import proofs.«165820_j74174085202653_2_alg».proof.Proof.Gen.Kernel
import proofs.«165820_j74174085202653_2_alg».proof.Proof.Gen.Kernel.Frame
import proofs.«165820_j74174085202653_2_alg».proof.Proof.Gen.KernelIdeal
import proofs.«165820_j74174085202653_2_alg».proof.Proof.Gen.KernelIdeal.Frame
import proofs.«165820_j74174085202653_2_alg».proof.Proof.Gen.ReferenceIdeal
import proofs.«165820_j74174085202653_2_alg».proof.Proof.Gen.Pre_finite_inputs
import proofs.«165820_j74174085202653_2_alg».proof.Proof.Gen.ReferenceIdeal.Run
import proofs.«165820_j74174085202653_2_alg».proof.Proof.Gen.ReferenceIdeal.Read
import proofs.«165820_j74174085202653_2_alg».proof.Proof.KernelRun
import proofs.«165820_j74174085202653_2_alg».proof.Proof.Chain
import Idealize.ShloMosaic.Adequacy
import Idealize.ShloMosaic.Init

noncomputable section

namespace Cert.Proof

open Idealize.ShloMosaic Idealize.ShloMosaic.TcCoe Idealize.SL.Sem

/-- The word-level kernel program runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the same result array: the kernel program's is the last
    boundary memory at the result buffer, which the chain of launches and host stretches identifies with the reference's
    last stage; the reference's run ends at that stage of ITS arguments, which are the same. -/
theorem algebraic : Cert.algebraic_KernelIdeal_ReferenceIdeal := by
  intro m ρ m' ρ' _ hagree
  refine ⟨fun c => Cert.KernelIdeal.Gen.W9 m ρ c (Proc.devRef .tc Cert.KernelIdeal.main_v60), Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v99_eq, a0, a1, a2, a3, a4, a5, a6, a7]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
